-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S3x4096x4096 : Shape := ⟨3, ![3, 4096, 4096]⟩
abbrev S384x128 : Shape := ⟨2, ![384, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128 .f32) (main_arg1 : FVec F S3x4096x4096 .f32) (main_arg2 : FVec F S384x128 .f32) (main_arg3 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128 : Shape := ⟨2, ![4096, 128]⟩
abbrev S3x4096x4096 : Shape := ⟨3, ![3, 4096, 4096]⟩
abbrev S384x128 : Shape := ⟨2, ![384, 128]⟩
abbrev S128 : Shape := ⟨1, ![128]⟩
abbrev S1x128 : Shape := ⟨2, ![1, 128]⟩
abbrev S12288x4096 : Shape := ⟨2, ![12288, 4096]⟩
abbrev S512x4096 : Shape := ⟨2, ![512, 4096]⟩
abbrev S512x128 : Shape := ⟨2, ![512, 128]⟩
abbrev S3x4096x128 : Shape := ⟨3, ![3, 4096, 128]⟩
abbrev S128x128 : Shape := ⟨2, ![128, 128]⟩
abbrev S1x4096x128 : Shape := ⟨3, ![1, 4096, 128]⟩

abbrev nBuf : Space → Nat
  | .hbm => 7
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S3x4096x4096, .f32⟩
  | .hbm, ⟨2, _⟩ => ⟨S384x128, .f32⟩
  | .hbm, ⟨3, _⟩ => ⟨S128, .f32⟩
  | .hbm, ⟨4, _⟩ => ⟨S1x128, .f32⟩
  | .hbm, ⟨5, _⟩ => ⟨S12288x4096, .f32⟩
  | .hbm, ⟨6, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S384x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S3x4096x128, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 3], ![false, false]⟩

def k0_off1 (i : grid0.Coords) : Fin 3 → Nat :=
  let arg1 : BitVec 32 := BitVec.ofNat 32 (i 1).val
  let v8 : Index := Scalar.indexCast arg1
  let c0_3 : Index := 0#32
  let c0_4 : Index := 0#32
  ![v8.toNat, 0, 0]
def k0_cond2 (i : grid0.Coords) : BitVec 1 :=
  let arg1 : BitVec 32 := BitVec.ofNat 32 (i 1).val
  let c0_i32_5 : BitVec 32 := 0#32
  let v12 : BitVec 1 := Scalar.cmpi .eq arg1 c0_i32_5
  let v13 : BitVec 32 := Scalar.extui v12
  let c0_i32_6 : BitVec 32 := 0#32
  let v14 : BitVec 1 := Scalar.cmpi .ne v13 c0_i32_6
  v14

def k0_cond3 (i : grid0.Coords) : BitVec 1 :=
  let arg1 : BitVec 32 := BitVec.ofNat 32 (i 1).val
  let c0_i32_7 : BitVec 32 := 0#32
  let v15 : BitVec 1 := Scalar.cmpi .ne arg1 c0_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  shapeCasts_S3x4096x4096_S12288x4096 : S3x4096x4096.ShapeCasts S12288x4096
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S384x128_S128x128_0_0 : ∀ a, (![0, 0] : Fin 2 → Nat) a + S128x128.size a ≤ S384x128.size a
  h_S128x128 : 0 < S128x128.numel
  inb_S3x4096x128_S1x4096x128_0_0_0 : ∀ a, (![0, 0, 0] : Fin 3 → Nat) a + S1x4096x128.size a ≤ S3x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  packedbf16_S3x4096x128_S1x4096x128_0_0_0 : (Rect.unit (s := S3x4096x128) ![0, 0, 0] S1x4096x128.size inb_S3x4096x128_S1x4096x128_0_0_0).PackedRows (EltTy.packing .bf16)
  inb_S384x128_S128x128_128_0 : ∀ a, (![128, 0] : Fin 2 → Nat) a + S128x128.size a ≤ S384x128.size a
  inb_S3x4096x128_S1x4096x128_1_0_0 : ∀ a, (![1, 0, 0] : Fin 3 → Nat) a + S1x4096x128.size a ≤ S3x4096x128.size a
  packedbf16_S3x4096x128_S1x4096x128_1_0_0 : (Rect.unit (s := S3x4096x128) ![1, 0, 0] S1x4096x128.size inb_S3x4096x128_S1x4096x128_1_0_0).PackedRows (EltTy.packing .bf16)
  inb_S384x128_S128x128_256_0 : ∀ a, (![256, 0] : Fin 2 → Nat) a + S128x128.size a ≤ S384x128.size a
  inb_S3x4096x128_S1x4096x128_2_0_0 : ∀ a, (![2, 0, 0] : Fin 3 → Nat) a + S1x4096x128.size a ≤ S3x4096x128.size a
  packedbf16_S3x4096x128_S1x4096x128_2_0_0 : (Rect.unit (s := S3x4096x128) ![2, 0, 0] S1x4096x128.size inb_S3x4096x128_S1x4096x128_2_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  hrank0 : 0 < grid0.rank
  k0_off1_inb : ∀ i : grid0.Coords, ∀ a, (k0_off1 i) a + S1x4096x128.size a ≤ S3x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S12288x4096.size a
  hwx0_0 : ∀ i : grid0.Coords, EltTy.bits .f32 = 32 ∨ (Rect.block (s := S12288x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x128.size a ≤ S384x128.size a
  hwx0_2 : ∀ i : grid0.Coords, EltTy.bits .f32 = 32 ∨ (Rect.block (s := S384x128) S384x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S3x4096x4096 : Shape := ⟨3, ![3, 4096, 4096]⟩
abbrev S384x128 : Shape := ⟨2, ![384, 128]⟩
abbrev S128 : Shape := ⟨1, ![128]⟩
abbrev S1x4096x4096 : Shape := ⟨3, ![1, 4096, 4096]⟩
abbrev S4096x4096 : Shape := ⟨2, ![4096, 4096]⟩
abbrev S4096x384 : Shape := ⟨2, ![4096, 384]⟩
abbrev S1x128 : Shape := ⟨2, ![1, 128]⟩

abbrev nBuf : Space → Nat
  | .hbm => 18
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S3x4096x4096, .f32⟩
  | .hbm, ⟨2, _⟩ => ⟨S384x128, .f32⟩
  | .hbm, ⟨3, _⟩ => ⟨S128, .f32⟩
  | .hbm, ⟨4, _⟩ => ⟨S1x4096x4096, .f32⟩
  | .hbm, ⟨5, _⟩ => ⟨S4096x4096, .f32⟩
  | .hbm, ⟨6, _⟩ => ⟨S4096x128, .f32⟩
  | .hbm, ⟨7, _⟩ => ⟨S1x4096x4096, .f32⟩
  | .hbm, ⟨8, _⟩ => ⟨S4096x4096, .f32⟩
  | .hbm, ⟨9, _⟩ => ⟨S4096x128, .f32⟩
  | .hbm, ⟨10, _⟩ => ⟨S1x4096x4096, .f32⟩
  | .hbm, ⟨11, _⟩ => ⟨S4096x4096, .f32⟩
  | .hbm, ⟨12, _⟩ => ⟨S4096x128, .f32⟩
  | .hbm, ⟨13, _⟩ => ⟨S4096x384, .f32⟩
  | .hbm, ⟨14, _⟩ => ⟨S4096x128, .f32⟩
  | .hbm, ⟨15, _⟩ => ⟨S1x128, .f32⟩
  | .hbm, ⟨16, _⟩ => ⟨S4096x128, .f32⟩
  | .hbm, ⟨17, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  slices_S3x4096x4096_S1x4096x4096_0_0_0 : S3x4096x4096.Slices ![0, 0, 0] S1x4096x4096
  shapeCasts_S1x4096x4096_S4096x4096 : S1x4096x4096.ShapeCasts S4096x4096
  slices_S3x4096x4096_S1x4096x4096_1_0_0 : S3x4096x4096.Slices ![1, 0, 0] S1x4096x4096
  slices_S3x4096x4096_S1x4096x4096_2_0_0 : S3x4096x4096.Slices ![2, 0, 0] S1x4096x4096
  concatenates_S4096x128_S4096x128_S4096x128_S4096x384_d1 : Shape.Concatenates [S4096x128, S4096x128, S4096x128] S4096x384 1
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x4096_S4096x128_S4096x128_1_0_0_1_n_n_wf : DotDims.WF S4096x4096 S4096x128 S4096x128 [1] [0] [0] [1] [] []
  dot_S4096x384_S384x128_S4096x128_1_0_0_1_n_n_wf : DotDims.WF S4096x384 S384x128 S4096x128 [1] [0] [0] [1] [] []

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf

class Facts : Prop extends Facts₀ where

variable [Facts]
-- ==== Proof.KShared.lean ====
/-
  The grid of the layer's kernel has 8 × 3 points, visited row-major: point t has block row t / 3 and support
  index t % 3. The body branches three times on the point:
    * at the very first point (block row 0, support 0) it projects the features through the three weight slabs
      and keeps the three projections in its scratch buffer;
    * where the support index is 0 it stores  (block of B₀) · projection₀ + bias  into the output block;
    * where the support index is not 0 it adds  (block of B_s) · projection_s  to the output block.
  So the points fall into three cases: the first point; the other points of support 0; the points of support 1, 2.
  This module states the three conditions over the grid in closed form, says where the windows are live and
  where the output block is written back, and names the buffers the body is handed.
-/
import proofs.«117343_g7086696039036_cont_9to1c4b_243_11_alg».proof.Proof.Gen.Kernel.Launch
import proofs.«117343_g7086696039036_cont_9to1c4b_243_11_alg».proof.Proof.Gen.Kernel.Skeleton
import proofs.«117343_g7086696039036_cont_9to1c4b_243_11_alg».proof.Proof.Gen.Kernel.Points
import proofs.«117343_g7086696039036_cont_9to1c4b_243_11_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, over the grid -/

/-- "This is the first point": block row 0 and support index 0 (the body's scalar chain, substituted). -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcondFirst : ∀ t : Fin cfg0.N, condFirst (grid0.coords t) ↔ t.val = 0 :=
  (by decide +kernel : ∀ t : Fin grid0.N, condFirst (grid0.coords t) ↔ t.val = 0)

/-- "The support index is 0": the output block is started here. -/
abbrev condStart (i : grid0.Coords) : Prop := k0_cond2 i = 1#1
/-- It holds at the points divisible by 3. -/
theorem hcondStart : ∀ t : Fin cfg0.N, condStart (grid0.coords t) ↔ t.val % 3 = 0 :=
  (by decide +kernel : ∀ t : Fin grid0.N, condStart (grid0.coords t) ↔ t.val % 3 = 0)

/-- "The support index is not 0": the output block is added to here. -/
abbrev condAdd (i : grid0.Coords) : Prop := k0_cond3 i = 1#1
/-- It holds at the points not divisible by 3. -/
theorem hcondAdd : ∀ t : Fin cfg0.N, condAdd (grid0.coords t) ↔ t.val % 3 ≠ 0 :=
  (by decide +kernel : ∀ t : Fin grid0.N, condAdd (grid0.coords t) ↔ t.val % 3 ≠ 0)

/-- The support index of point `t` is `t % 3`, and the scratch slab the body reads there is that one. -/
theorem off_eq : ∀ t : Fin cfg0.N, k0_off1 (grid0.coords t) = ![t.val % 3, 0, 0] :=
  (by decide +kernel : ∀ t : Fin grid0.N, k0_off1 (grid0.coords t) = ![t.val % 3, 0, 0])

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Every point stores into the output block (it is started or added to). -/
theorem live4 : ∀ t : Fin cfg0.N, cfg0.idle 4 (grid0.coords t) = false := by decide +kernel

/-! ## The buffers the body is handed at a point -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S384x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
/-- The scratch buffer that keeps the three projections. -/
abbrev scM : Memref sig .tc .vmem S3x4096x128 .bf16 := Memref.whole cc0_scratch0
/-- One staging buffer of the output window, and the scratch, as views: contents are stated through them. -/
abbrev VO : View sig .tc .vmem S512x128 .f32 := (Memref.whole cc0_stg4_0 : Memref sig .tc .vmem S512x128 .f32).view
abbrev VS : View sig .tc .vmem S3x4096x128 .bf16 := scM.view

/-- What the launch hands the region beside the windows: the scratch buffer at some contents and the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KRunAdd.lean ====
/-
  The body at a point whose support index s is not 0: it loads the block of B_s, loads slab s of the kept
  projections from the scratch buffer, multiplies them, loads the output block as the point before left it,
  adds, and stores the sum back over the whole output block. The scratch buffer and the inputs are only read.
-/
import proofs.«117343_g7086696039036_cont_9to1c4b_243_11_alg».proof.Proof.KShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the output block at such a point, with the proof that the body, handed
    the inputs at their contents, the output block at what the point before left (`xo`) and the scratch at the kept
    projections (`xs`), runs to a continuation that holds all of them as they were but the output block, which holds
    the pieces. -/
noncomputable def runAdd (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : ¬condStart i) (h3 : condAdd i)
    (x0 : Vec F S512x4096 .f32) (x1 : Vec F S4096x128 .f32) (x2 : Vec F S384x128 .f32) (x3 : Vec F S1x128 .f32) (xo : Vec F S512x128 .f32) (xs : Vec F S3x4096x128 .bf16) :
    { L4 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__gcn_block i arg2 harg2 arg3 harg3 arg4 harg4 arg5 harg5 arg6 harg6 arg7 harg7) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf7
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact H7

end Cert.Kernel.Body

end
-- ==== Proof.KRunStart.lean ====
/-
  The body at a point of support index 0 that is not the first point: it loads the block of B₀, loads slab 0 of the
  kept projections from the scratch buffer, multiplies them, adds the bias row to every row, and stores the result
  over the whole output block, whatever that block held. The scratch buffer and the inputs are only read.
-/
import proofs.«117343_g7086696039036_cont_9to1c4b_243_11_alg».proof.Proof.KRunAdd

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the output block at such a point, with the proof that the body, handed
    the inputs at their contents, the output block at anything and the scratch at the kept projections (`xs`), runs
    to a continuation that holds all of them as they were but the output block, which holds the pieces. -/
noncomputable def runStart (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : condStart i) (h3 : ¬condAdd i)
    (x0 : Vec F S512x4096 .f32) (x1 : Vec F S4096x128 .f32) (x2 : Vec F S384x128 .f32) (x3 : Vec F S1x128 .f32) (xs : Vec F S3x4096x128 .bf16) :
    { L4 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__gcn_block i arg2 harg2 arg3 harg3 arg4 harg4 arg5 harg5 arg6 harg6 arg7 harg7) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%d4, %f4, -, H4⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact H7

end Cert.Kernel.Body

end
-- ==== Proof.KRunFirst.lean ====
/-
  The body at the first point: it loads the features and, slab by slab, the weight; stores the three projections
  X · W_s into the three slabs of the scratch buffer (whatever the buffer held); then, as at every point of support
  index 0, loads the block of B₀ and slab 0 of the scratch — the projection just stored —, multiplies, adds the
  bias row and stores the result over the whole output block.
-/
import proofs.«117343_g7086696039036_cont_9to1c4b_243_11_alg».proof.Proof.KRunStart

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body's stores leave in the output block and in the scratch buffer at the first point, with the
    proof that the body, handed the inputs at their contents and the output block and the scratch at anything, runs to
    a continuation that holds the inputs as they were and the two buffers with those pieces written. -/
noncomputable def runFirst (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i)
    (x0 : Vec F S512x4096 .f32) (x1 : Vec F S4096x128 .f32) (x2 : Vec F S384x128 .f32) (x3 : Vec F S1x128 .f32) :
    Σ' (L4 : List (View.Piece (Elt F) S512x128 .f32)), { LS : List (View.Piece (Elt F) S3x4096x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_block i arg2 harg2 arg3 harg3 arg4 harg4 arg5 harg5 arg6 harg6 arg7 harg7) K } := by
  refine ⟨?_, ?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%d4, %f4, -, H4⟩, ⟨%d7, %f7, -, H7⟩, Hk⟩
    obtain rfl := harg2.eq_unread hf0; obtain rfl := harg3.eq_unread hf1; obtain rfl := harg4.eq_unread hf2
    obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H7

end Cert.Kernel.Body

end
-- ==== Proof.KOuts.lean ====
/-
  What each of the three kinds of point leaves in the output block's buffer, and what the first point leaves in the
  scratch buffer: the pieces the body's stores wrote, read back. In every case the one store into the output block
  covers the whole block, and the three slabs stored at the first point tile the scratch buffer.
-/
import proofs.«117343_g7086696039036_cont_9to1c4b_243_11_alg».proof.Proof.KRunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block and in the scratch -/

theorem coverAdd (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : ¬condStart i) (h3 : condAdd i) (x0 : Vec F S512x4096 .f32) (x1 : Vec F S4096x128 .f32) (x2 : Vec F S384x128 .f32) (x3 : Vec F S1x128 .f32) (xo : Vec F S512x128 .f32) (xs : Vec F S3x4096x128 .bf16) (y : S512x128.Idx) :
    ∃ pc ∈ (runAdd c i arg2 harg2 arg3 harg3 arg4 harg4 arg5 harg5 arg6 harg6 arg7 harg7 h1 h2 h3 x0 x1 x2 x3 xo xs).1, y ∈ pc.1.set :=
  View.cover_of_tiledL (runAdd c i arg2 harg2 arg3 harg3 arg4 harg4 arg5 harg5 arg6 harg6 arg7 harg7 h1 h2 h3 x0 x1 x2 x3 xo xs).1 S512x128.size (by sl_kernel_rfl) y

/-- The output block after a point of support index ≠ 0: the stored pieces read back. -/
def outAdd (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : ¬condStart i) (h3 : condAdd i) (x0 : Vec F S512x4096 .f32) (x1 : Vec F S4096x128 .f32) (x2 : Vec F S384x128 .f32) (x3 : Vec F S1x128 .f32) (xo : Vec F S512x128 .f32) (xs : Vec F S3x4096x128 .bf16) : Vec F S512x128 .f32 :=
  VO.read (Elt F) (VO.writes (Elt F) VO.junk (runAdd c i arg2 harg2 arg3 harg3 arg4 harg4 arg5 harg5 arg6 harg6 arg7 harg7 h1 h2 h3 x0 x1 x2 x3 xo xs).1)

theorem coverStart (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : condStart i) (h3 : ¬condAdd i) (x0 : Vec F S512x4096 .f32) (x1 : Vec F S4096x128 .f32) (x2 : Vec F S384x128 .f32) (x3 : Vec F S1x128 .f32) (xs : Vec F S3x4096x128 .bf16) (y : S512x128.Idx) :
    ∃ pc ∈ (runStart c i arg2 harg2 arg3 harg3 arg4 harg4 arg5 harg5 arg6 harg6 arg7 harg7 h1 h2 h3 x0 x1 x2 x3 xs).1, y ∈ pc.1.set :=
  View.cover_of_tiledL (runStart c i arg2 harg2 arg3 harg3 arg4 harg4 arg5 harg5 arg6 harg6 arg7 harg7 h1 h2 h3 x0 x1 x2 x3 xs).1 S512x128.size (by sl_kernel_rfl) y

/-- The output block after a later point of support index 0: the stored pieces read back. -/
def outStart (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : condStart i) (h3 : ¬condAdd i) (x0 : Vec F S512x4096 .f32) (x1 : Vec F S4096x128 .f32) (x2 : Vec F S384x128 .f32) (x3 : Vec F S1x128 .f32) (xs : Vec F S3x4096x128 .bf16) : Vec F S512x128 .f32 :=
  VO.read (Elt F) (VO.writes (Elt F) VO.junk (runStart c i arg2 harg2 arg3 harg3 arg4 harg4 arg5 harg5 arg6 harg6 arg7 harg7 h1 h2 h3 x0 x1 x2 x3 xs).1)

theorem coverFirst (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec F S512x4096 .f32) (x1 : Vec F S4096x128 .f32) (x2 : Vec F S384x128 .f32) (x3 : Vec F S1x128 .f32) (y : S512x128.Idx) :
    ∃ pc ∈ (runFirst c i arg2 harg2 arg3 harg3 arg4 harg4 arg5 harg5 arg6 harg6 arg7 harg7 h1 h2 h3 x0 x1 x2 x3).1, y ∈ pc.1.set :=
  View.cover_of_tiledL (runFirst c i arg2 harg2 arg3 harg3 arg4 harg4 arg5 harg5 arg6 harg6 arg7 harg7 h1 h2 h3 x0 x1 x2 x3).1 S512x128.size (by sl_kernel_rfl) y

/-- The output block after the first point: the stored pieces read back. -/
def outFirst (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec F S512x4096 .f32) (x1 : Vec F S4096x128 .f32) (x2 : Vec F S384x128 .f32) (x3 : Vec F S1x128 .f32) : Vec F S512x128 .f32 :=
  VO.read (Elt F) (VO.writes (Elt F) VO.junk (runFirst c i arg2 harg2 arg3 harg3 arg4 harg4 arg5 harg5 arg6 harg6 arg7 harg7 h1 h2 h3 x0 x1 x2 x3).1)

/-- The three slabs stored at the first point tile the scratch buffer. -/
theorem coverScratch (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec F S512x4096 .f32) (x1 : Vec F S4096x128 .f32) (x2 : Vec F S384x128 .f32) (x3 : Vec F S1x128 .f32) (y : S3x4096x128.Idx) :
    ∃ pc ∈ (runFirst c i arg2 harg2 arg3 harg3 arg4 harg4 arg5 harg5 arg6 harg6 arg7 harg7 h1 h2 h3 x0 x1 x2 x3).2.1, y ∈ pc.1.set :=
  View.cover_of_tiledL (runFirst c i arg2 harg2 arg3 harg3 arg4 harg4 arg5 harg5 arg6 harg6 arg7 harg7 h1 h2 h3 x0 x1 x2 x3).2.1 S1x4096x128.size (by sl_kernel_rfl) y

/-- The scratch buffer after the first point: the three stored slabs read back. -/
def scrFirst (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec F S512x4096 .f32) (x1 : Vec F S4096x128 .f32) (x2 : Vec F S384x128 .f32) (x3 : Vec F S1x128 .f32) : Vec F S3x4096x128 .bf16 :=
  VS.read (Elt F) (VS.writes (Elt F) VS.junk (runFirst c i arg2 harg2 arg3 harg3 arg4 harg4 arg5 harg5 arg6 harg6 arg7 harg7 h1 h2 h3 x0 x1 x2 x3).2.1)

end Cert.Kernel.Body

end
-- ==== Proof.KData.lean ====
/-
  What the output block's buffer and the scratch buffer hold after each point, by recursion on the point, and the
  pipeline's proof data built from it.

  After the first point the scratch buffer holds the three projections and keeps them to the end. The output
  block's buffer after point t holds: at a point of support index 0, (block of B₀)·projection₀ + bias; at a point
  of support index s ≠ 0, what the point before left plus (block of B_s)·projection_s. It is written back to the
  output array after the points of support index 2, and not in between.
-/
import proofs.«117343_g7086696039036_cont_9to1c4b_243_11_alg».proof.Proof.KOuts

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## After each point -/

/-- The first point. -/
abbrev t0 : Fin cfg0.N := ⟨0, by rw [show cfg0.N = 24 from N_0]; omega⟩

theorem first_h1 : condFirst (grid0.coords t0) := (hcondFirst t0).mpr rfl
theorem first_h2 : condStart (grid0.coords t0) := (hcondStart t0).mpr rfl
theorem first_h3 : ¬condAdd (grid0.coords t0) := fun h => (hcondAdd t0).mp h rfl

/-- The kept projections: what the first point leaves in the scratch buffer. -/
def kept (c : Dev nD) : Vec F S3x4096x128 .bf16 :=
  scrFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0)

/-- THE ACCUMULATION: the output block's buffer after the body at position `n`. -/
def outAt (c : Dev nD) : (n : ℕ) → n < cfg0.N → Vec F S512x128 .f32
  | 0, hn => outFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0)
  | n + 1, hn =>
    if h0 : (n + 1) % 3 = 0 then
      outStart c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _)
        (fun h => absurd ((hcondFirst ⟨n + 1, hn⟩).mp h) (Nat.succ_ne_zero n)) ((hcondStart ⟨n + 1, hn⟩).mpr h0) (fun h => (hcondAdd ⟨n + 1, hn⟩).mp h h0)
        (iblk m c 0 ⟨n + 1, hn⟩) (iblk m c 1 ⟨n + 1, hn⟩) (iblk m c 2 ⟨n + 1, hn⟩) (iblk m c 3 ⟨n + 1, hn⟩) (kept m c)
    else
      outAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _)
        (fun h => absurd ((hcondFirst ⟨n + 1, hn⟩).mp h) (Nat.succ_ne_zero n)) (fun h => h0 ((hcondStart ⟨n + 1, hn⟩).mp h)) ((hcondAdd ⟨n + 1, hn⟩).mpr h0)
        (iblk m c 0 ⟨n + 1, hn⟩) (iblk m c 1 ⟨n + 1, hn⟩) (iblk m c 2 ⟨n + 1, hn⟩) (iblk m c 3 ⟨n + 1, hn⟩) (outAt c n (Nat.lt_of_succ_lt hn)) (kept m c)

theorem outAt_first (c : Dev nD) (t : Fin cfg0.N) (hz : t.val = 0) :
    outAt m c t.val t.isLt = outFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0) := by
  obtain ⟨n, hn⟩ := t
  cases n with
  | zero => rfl
  | succ n => exact absurd hz (Nat.succ_ne_zero n)

theorem outAt_start (c : Dev nD) (t : Fin cfg0.N) (hz : t.val ≠ 0) (h0 : t.val % 3 = 0) :
    outAt m c t.val t.isLt = outStart c (grid0.coords t) (ms0 t) (hs0 t) (ms1 t) (hs1 t) (ms2 t) (hs2 t) (ms3 t) (hs3 t) (ms4 t) (hs4 t) scM (Memref.isWhole_whole _)
        (fun h => hz ((hcondFirst t).mp h)) ((hcondStart t).mpr h0) (fun h => (hcondAdd t).mp h h0)
        (iblk m c 0 t) (iblk m c 1 t) (iblk m c 2 t) (iblk m c 3 t) (kept m c) := by
  obtain ⟨n, hn⟩ := t
  cases n with
  | zero => exact absurd rfl hz
  | succ n => exact (dif_pos h0).trans rfl

theorem outAt_add (c : Dev nD) (t : Fin cfg0.N) (hz : t.val ≠ 0) (h0 : ¬t.val % 3 = 0) :
    outAt m c t.val t.isLt = outAdd c (grid0.coords t) (ms0 t) (hs0 t) (ms1 t) (hs1 t) (ms2 t) (hs2 t) (ms3 t) (hs3 t) (ms4 t) (hs4 t) scM (Memref.isWhole_whole _)
        (fun h => hz ((hcondFirst t).mp h)) (fun h => h0 ((hcondStart t).mp h)) ((hcondAdd t).mpr h0)
        (iblk m c 0 t) (iblk m c 1 t) (iblk m c 2 t) (iblk m c 3 t) (outAt m c (t.val - 1) (Nat.lt_of_le_of_lt (Nat.sub_le _ _) t.isLt)) (kept m c) := by
  obtain ⟨n, hn⟩ := t
  cases n with
  | zero => exact absurd rfl hz
  | succ n => exact (dif_neg h0).trans rfl

/-- The region's invariant before position `n`: before the first point the scratch holds anything; afterwards it
    holds the kept projections. The generator register is at some state throughout. -/
def PhiS (c : Dev nD) : (n : ℕ) → n ≤ cfg0.N → sProp 𝕄
  | 0, _ => Pipeline.ΦA spec0 c
  | n + 1, hn => iprop(iprop(owns (c : Thread nD τ) scM fullShare (kept m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM fullShare (kept m c)) ∗ (∃ r, prngReg c r)) := by
  cases n with
  | zero => exact absurd rfl hz
  | succ n => rfl

/-! ## The pipeline's proof data -/

/-- The arrays as the region finds them; after the body each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At every coordinate pair the body stores into the output block: it is started or added to. -/
theorem live4_all : ∀ i : grid0.Coords, cfg0.idle 4 i = false := by decide +kernel

/-- At a point of support index ≠ 0 the output block's buffer holds what the point before left: the point is not
    the first, and the block is written back only after the points of support index 2. -/
theorem before4_add (c : Dev nD) (t : Fin cfg0.N) (h0 : ¬t.val % 3 = 0) (d) :
    (dats m 0 c).before 4 t d = outAt m c (t.val - 1) (Nat.lt_of_le_of_lt (Nat.sub_le _ _) t.isLt) := by
  have hN : t.val < 24 := lt_of_lt_of_eq t.isLt (show cfg0.N = 24 from N_0)
  rw [Dat.before_out_kept _ 4 rfl t (by omega) (Bool.eq_false_iff.mpr fun h => by have := (flush0_4 _).mp h; dsimp only at this; omega)
    live4_all (fun _ _ => rfl)]
  dsimp only [dats]

end Cert.Kernel.Body

end
-- ==== Proof.KFrame.lean ====
/-
  The body's obligation at a generic point, by cases on the point's kind; the run of the whole program; and the
  frame: the program terminates, faults nowhere, and leaves its four argument arrays as it found them.
-/
import proofs.«117343_g7086696039036_cont_9to1c4b_243_11_alg».proof.Proof.KData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (outAt m c t.val t.isLt) := by
  unfold Dat.leavesExact; rw [live4 t, after4]

set_option maxHeartbeats 4800000 in
/-- The body at the first point: the scratch and the output block are handed over at anything; the scratch comes back
    at the kept projections. -/
theorem sound_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves0, leaves1, leaves2, leaves3, leaves4]
  have hN : t.val < 24 := lt_of_lt_of_eq t.isLt (show cfg0.N = 24 from N_0)
  obtain rfl : t = t0 := Fin.ext hz
  rw [outAt_first m c t0 rfl]
  unfold outFirst kept scrFirst
  rw [PhiS_castSucc m c t0, PhiS_zero m c _ _ rfl, PhiA_eq]
  iintro ⟨⟨HS, Hg⟩, Ho, ⟨%d0, H0⟩, ⟨%d1, H1⟩, ⟨%d2, H2⟩, ⟨%d3, H3⟩, ⟨%d4, H4⟩⟩
  iapply ((runFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS Hg]
  · isplitl [HS]
    · unfold owns; iexists _; isplitr
      swap; · iexact HS
      ipureintro; exact View.read_writes_of_cover _ _ _ _ _ (coverScratch c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0))
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0))

set_option maxHeartbeats 4800000 in
/-- The body at a later point of support index 0: the scratch passes through at the kept projections. -/
theorem sound_start (c : Dev nD) (t : Fin cfg0.N) (hz : t.val ≠ 0) (h0 : t.val % 3 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves0, leaves1, leaves2, leaves3, leaves4]
  have hN : t.val < 24 := lt_of_lt_of_eq t.isLt (show cfg0.N = 24 from N_0)
  rw [PhiS_castSucc m c t, PhiS_pos m c _ _ hz]
  rw [outAt_start m c t hz h0]
  unfold outStart
  iintro ⟨⟨HS, Hg⟩, Ho, ⟨%d0, H0⟩, ⟨%d1, H1⟩, ⟨%d2, H2⟩, ⟨%d3, H3⟩, ⟨%d4, H4⟩⟩
  iapply ((runStart c (grid0.coords t) (ms0 t) (hs0 t) (ms1 t) (hs1 t) (ms2 t) (hs2 t) (ms3 t) (hs3 t) (ms4 t) (hs4 t) scM (Memref.isWhole_whole _) (fun h => hz ((hcondFirst t).mp h)) ((hcondStart t).mpr h0) (fun h => (hcondAdd t).mp h h0) (iblk m c 0 t) (iblk m c 1 t) (iblk m c 2 t) (iblk m c 3 t) (kept m c)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverStart c (grid0.coords t) (ms0 t) (hs0 t) (ms1 t) (hs1 t) (ms2 t) (hs2 t) (ms3 t) (hs3 t) (ms4 t) (hs4 t) scM (Memref.isWhole_whole _) (fun h => hz ((hcondFirst t).mp h)) ((hcondStart t).mpr h0) (fun h => (hcondAdd t).mp h h0) (iblk m c 0 t) (iblk m c 1 t) (iblk m c 2 t) (iblk m c 3 t) (kept m c))

set_option maxHeartbeats 4800000 in
/-- The body at a point of support index ≠ 0: the output block is handed over at what the point before left; the
    scratch passes through at the kept projections. -/
theorem sound_add (c : Dev nD) (t : Fin cfg0.N) (hz : t.val ≠ 0) (h0 : ¬t.val % 3 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves0, leaves1, leaves2, leaves3, leaves4]
  have hN : t.val < 24 := lt_of_lt_of_eq t.isLt (show cfg0.N = 24 from N_0)
  rw [PhiS_castSucc m c t, PhiS_pos m c _ _ hz]
  rw [outAt_add m c t hz h0]
  simp only [before4_add m c t h0]
  unfold outAdd
  iintro ⟨⟨HS, Hg⟩, Ho, ⟨%d0, H0⟩, ⟨%d1, H1⟩, ⟨%d2, H2⟩, ⟨%d3, H3⟩, ⟨%d4, H4⟩⟩
  iapply ((runAdd c (grid0.coords t) (ms0 t) (hs0 t) (ms1 t) (hs1 t) (ms2 t) (hs2 t) (ms3 t) (hs3 t) (ms4 t) (hs4 t) scM (Memref.isWhole_whole _) (fun h => hz ((hcondFirst t).mp h)) (fun h => h0 ((hcondStart t).mp h)) ((hcondAdd t).mpr h0) (iblk m c 0 t) (iblk m c 1 t) (iblk m c 2 t) (iblk m c 3 t) (outAt m c (t.val - 1) (Nat.lt_of_le_of_lt (Nat.sub_le _ _) t.isLt)) (kept m c)).2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverAdd c (grid0.coords t) (ms0 t) (hs0 t) (ms1 t) (hs1 t) (ms2 t) (hs2 t) (ms3 t) (hs3 t) (ms4 t) (hs4 t) scM (Memref.isWhole_whole _) (fun h => hz ((hcondFirst t).mp h)) (fun h => h0 ((hcondStart t).mp h)) ((hcondAdd t).mpr h0) (iblk m c 0 t) (iblk m c 1 t) (iblk m c 2 t) (iblk m c 3 t) (outAt m c (t.val - 1) (Nat.lt_of_le_of_lt (Nat.sub_le _ _) t.isLt)) (kept m c))

/-- The body at any point: one of the three kinds. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  · by_cases h0 : t.val % 3 = 0
    · exact sound_start m c t hz h0
    · exact sound_add m c t hz h0

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 24 := N_0; omega), PhiA_eq]
  iintro ⟨HS, Hg⟩
  isplitl [HS]
  · iexists _; iexact HS
  iexact Hg

/-! ## The run and the frame -/

set_option backward.isDefEq.respectTransparency.types false in
/-- Every weakly fair execution of the program terminates, nothing faulting, with every array of the pipeline at
    what the library computes from the proof data and every other argument as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs to the end, faults nowhere, and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KIShared.lean ====
/-
  The grid of the layer's kernel has 8 × 3 points, visited row-major: point t has block row t / 3 and support
  index t % 3. The body branches three times on the point:
    * at the very first point (block row 0, support 0) it projects the features through the three weight slabs
      and keeps the three projections in its scratch buffer;
    * where the support index is 0 it stores  (block of B₀) · projection₀ + bias  into the output block;
    * where the support index is not 0 it adds  (block of B_s) · projection_s  to the output block.
  So the points fall into three cases: the first point; the other points of support 0; the points of support 1, 2.
  This module states the three conditions over the grid in closed form, says where the windows are live and
  where the output block is written back, and names the buffers the body is handed.
-/
import proofs.«117343_g7086696039036_cont_9to1c4b_243_11_alg».proof.Proof.Gen.KernelIdeal.Launch
import proofs.«117343_g7086696039036_cont_9to1c4b_243_11_alg».proof.Proof.Gen.KernelIdeal.Skeleton
import proofs.«117343_g7086696039036_cont_9to1c4b_243_11_alg».proof.Proof.Gen.KernelIdeal.Points
import proofs.«117343_g7086696039036_cont_9to1c4b_243_11_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, over the grid -/

/-- "This is the first point": block row 0 and support index 0 (the body's scalar chain, substituted). -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcondFirst : ∀ t : Fin cfg0.N, condFirst (grid0.coords t) ↔ t.val = 0 :=
  (by decide +kernel : ∀ t : Fin grid0.N, condFirst (grid0.coords t) ↔ t.val = 0)

/-- "The support index is 0": the output block is started here. -/
abbrev condStart (i : grid0.Coords) : Prop := k0_cond2 i = 1#1
/-- It holds at the points divisible by 3. -/
theorem hcondStart : ∀ t : Fin cfg0.N, condStart (grid0.coords t) ↔ t.val % 3 = 0 :=
  (by decide +kernel : ∀ t : Fin grid0.N, condStart (grid0.coords t) ↔ t.val % 3 = 0)

/-- "The support index is not 0": the output block is added to here. -/
abbrev condAdd (i : grid0.Coords) : Prop := k0_cond3 i = 1#1
/-- It holds at the points not divisible by 3. -/
theorem hcondAdd : ∀ t : Fin cfg0.N, condAdd (grid0.coords t) ↔ t.val % 3 ≠ 0 :=
  (by decide +kernel : ∀ t : Fin grid0.N, condAdd (grid0.coords t) ↔ t.val % 3 ≠ 0)

/-- The support index of point `t` is `t % 3`, and the scratch slab the body reads there is that one. -/
theorem off_eq : ∀ t : Fin cfg0.N, k0_off1 (grid0.coords t) = ![t.val % 3, 0, 0] :=
  (by decide +kernel : ∀ t : Fin grid0.N, k0_off1 (grid0.coords t) = ![t.val % 3, 0, 0])

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Every point stores into the output block (it is started or added to). -/
theorem live4 : ∀ t : Fin cfg0.N, cfg0.idle 4 (grid0.coords t) = false := by decide +kernel

/-! ## The buffers the body is handed at a point -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S384x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
/-- The scratch buffer that keeps the three projections. -/
abbrev scM : Memref sig .tc .vmem S3x4096x128 .bf16 := Memref.whole cc0_scratch0
/-- One staging buffer of the output window, and the scratch, as views: contents are stated through them. -/
abbrev VO : View sig .tc .vmem S512x128 .f32 := (Memref.whole cc0_stg4_0 : Memref sig .tc .vmem S512x128 .f32).view
abbrev VS : View sig .tc .vmem S3x4096x128 .bf16 := scM.view

/-- What the launch hands the region beside the windows: the scratch buffer at some contents and the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KIRunAdd.lean ====
/-
  The body at a point whose support index s is not 0: it loads the block of B_s, loads slab s of the kept
  projections from the scratch buffer, multiplies them, loads the output block as the point before left it,
  adds, and stores the sum back over the whole output block. The scratch buffer and the inputs are only read.
-/
import proofs.«117343_g7086696039036_cont_9to1c4b_243_11_alg».proof.Proof.KIShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the output block at such a point, with the proof that the body, handed
    the inputs at their contents, the output block at what the point before left (`xo`) and the scratch at the kept
    projections (`xs`), runs to a continuation that holds all of them as they were but the output block, which holds
    the pieces. -/
noncomputable def runAdd (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : ¬condStart i) (h3 : condAdd i)
    (x0 : Vec F S512x4096 .f32) (x1 : Vec F S4096x128 .f32) (x2 : Vec F S384x128 .f32) (x3 : Vec F S1x128 .f32) (xo : Vec F S512x128 .f32) (xs : Vec F S3x4096x128 .bf16) :
    { L4 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__gcn_block i arg2 harg2 arg3 harg3 arg4 harg4 arg5 harg5 arg6 harg6 arg7 harg7) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf7
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact H7

end Cert.KernelIdeal.Body

end
-- ==== Proof.KIRunStart.lean ====
/-
  The body at a point of support index 0 that is not the first point: it loads the block of B₀, loads slab 0 of the
  kept projections from the scratch buffer, multiplies them, adds the bias row to every row, and stores the result
  over the whole output block, whatever that block held. The scratch buffer and the inputs are only read.
-/
import proofs.«117343_g7086696039036_cont_9to1c4b_243_11_alg».proof.Proof.KIRunAdd

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's one store leaves in the output block at such a point, with the proof that the body, handed
    the inputs at their contents, the output block at anything and the scratch at the kept projections (`xs`), runs
    to a continuation that holds all of them as they were but the output block, which holds the pieces. -/
noncomputable def runStart (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : condStart i) (h3 : ¬condAdd i)
    (x0 : Vec F S512x4096 .f32) (x1 : Vec F S4096x128 .f32) (x2 : Vec F S384x128 .f32) (x3 : Vec F S1x128 .f32) (xs : Vec F S3x4096x128 .bf16) :
    { L4 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ owns (c : Thread nD τ) arg7 fullShare xs) -∗ K ⟨⟩))
          ⊢ wp frame (wpE (defs₀ (F := F)) Variants.none c none) E (cc0__gcn_block i arg2 harg2 arg3 harg3 arg4 harg4 arg5 harg5 arg6 harg6 arg7 harg7) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%d4, %f4, -, H4⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact H7

end Cert.KernelIdeal.Body

end
-- ==== Proof.KIRunFirst.lean ====
/-
  The body at the first point: it loads the features and, slab by slab, the weight; stores the three projections
  X · W_s into the three slabs of the scratch buffer (whatever the buffer held); then, as at every point of support
  index 0, loads the block of B₀ and slab 0 of the scratch — the projection just stored —, multiplies, adds the
  bias row and stores the result over the whole output block.
-/
import proofs.«117343_g7086696039036_cont_9to1c4b_243_11_alg».proof.Proof.KIRunStart

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body's stores leave in the output block and in the scratch buffer at the first point, with the
    proof that the body, handed the inputs at their contents and the output block and the scratch at anything, runs to
    a continuation that holds the inputs as they were and the two buffers with those pieces written. -/
noncomputable def runFirst (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i)
    (x0 : Vec F S512x4096 .f32) (x1 : Vec F S4096x128 .f32) (x2 : Vec F S384x128 .f32) (x3 : Vec F S1x128 .f32) :
    Σ' (L4 : List (View.Piece (Elt F) S512x128 .f32)), { LS : List (View.Piece (Elt F) S3x4096x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_block i arg2 harg2 arg3 harg3 arg4 harg4 arg5 harg5 arg6 harg6 arg7 harg7) K } := by
  refine ⟨?_, ?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%d4, %f4, -, H4⟩, ⟨%d7, %f7, -, H7⟩, Hk⟩
    obtain rfl := harg2.eq_unread hf0; obtain rfl := harg3.eq_unread hf1; obtain rfl := harg4.eq_unread hf2
    obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H7

end Cert.KernelIdeal.Body

end
-- ==== Proof.KIOuts.lean ====
/-
  What each of the three kinds of point leaves in the output block's buffer, and what the first point leaves in the
  scratch buffer: the pieces the body's stores wrote, read back. In every case the one store into the output block
  covers the whole block, and the three slabs stored at the first point tile the scratch buffer.
-/
import proofs.«117343_g7086696039036_cont_9to1c4b_243_11_alg».proof.Proof.KIRunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block and in the scratch -/

theorem coverAdd (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : ¬condStart i) (h3 : condAdd i) (x0 : Vec F S512x4096 .f32) (x1 : Vec F S4096x128 .f32) (x2 : Vec F S384x128 .f32) (x3 : Vec F S1x128 .f32) (xo : Vec F S512x128 .f32) (xs : Vec F S3x4096x128 .bf16) (y : S512x128.Idx) :
    ∃ pc ∈ (runAdd c i arg2 harg2 arg3 harg3 arg4 harg4 arg5 harg5 arg6 harg6 arg7 harg7 h1 h2 h3 x0 x1 x2 x3 xo xs).1, y ∈ pc.1.set :=
  View.cover_of_tiledL (runAdd c i arg2 harg2 arg3 harg3 arg4 harg4 arg5 harg5 arg6 harg6 arg7 harg7 h1 h2 h3 x0 x1 x2 x3 xo xs).1 S512x128.size (by sl_kernel_rfl) y

/-- The output block after a point of support index ≠ 0: the stored pieces read back. -/
def outAdd (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : ¬condStart i) (h3 : condAdd i) (x0 : Vec F S512x4096 .f32) (x1 : Vec F S4096x128 .f32) (x2 : Vec F S384x128 .f32) (x3 : Vec F S1x128 .f32) (xo : Vec F S512x128 .f32) (xs : Vec F S3x4096x128 .bf16) : Vec F S512x128 .f32 :=
  VO.read (Elt F) (VO.writes (Elt F) VO.junk (runAdd c i arg2 harg2 arg3 harg3 arg4 harg4 arg5 harg5 arg6 harg6 arg7 harg7 h1 h2 h3 x0 x1 x2 x3 xo xs).1)

theorem coverStart (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : condStart i) (h3 : ¬condAdd i) (x0 : Vec F S512x4096 .f32) (x1 : Vec F S4096x128 .f32) (x2 : Vec F S384x128 .f32) (x3 : Vec F S1x128 .f32) (xs : Vec F S3x4096x128 .bf16) (y : S512x128.Idx) :
    ∃ pc ∈ (runStart c i arg2 harg2 arg3 harg3 arg4 harg4 arg5 harg5 arg6 harg6 arg7 harg7 h1 h2 h3 x0 x1 x2 x3 xs).1, y ∈ pc.1.set :=
  View.cover_of_tiledL (runStart c i arg2 harg2 arg3 harg3 arg4 harg4 arg5 harg5 arg6 harg6 arg7 harg7 h1 h2 h3 x0 x1 x2 x3 xs).1 S512x128.size (by sl_kernel_rfl) y

/-- The output block after a later point of support index 0: the stored pieces read back. -/
def outStart (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : condStart i) (h3 : ¬condAdd i) (x0 : Vec F S512x4096 .f32) (x1 : Vec F S4096x128 .f32) (x2 : Vec F S384x128 .f32) (x3 : Vec F S1x128 .f32) (xs : Vec F S3x4096x128 .bf16) : Vec F S512x128 .f32 :=
  VO.read (Elt F) (VO.writes (Elt F) VO.junk (runStart c i arg2 harg2 arg3 harg3 arg4 harg4 arg5 harg5 arg6 harg6 arg7 harg7 h1 h2 h3 x0 x1 x2 x3 xs).1)

theorem coverFirst (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec F S512x4096 .f32) (x1 : Vec F S4096x128 .f32) (x2 : Vec F S384x128 .f32) (x3 : Vec F S1x128 .f32) (y : S512x128.Idx) :
    ∃ pc ∈ (runFirst c i arg2 harg2 arg3 harg3 arg4 harg4 arg5 harg5 arg6 harg6 arg7 harg7 h1 h2 h3 x0 x1 x2 x3).1, y ∈ pc.1.set :=
  View.cover_of_tiledL (runFirst c i arg2 harg2 arg3 harg3 arg4 harg4 arg5 harg5 arg6 harg6 arg7 harg7 h1 h2 h3 x0 x1 x2 x3).1 S512x128.size (by sl_kernel_rfl) y

/-- The output block after the first point: the stored pieces read back. -/
def outFirst (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec F S512x4096 .f32) (x1 : Vec F S4096x128 .f32) (x2 : Vec F S384x128 .f32) (x3 : Vec F S1x128 .f32) : Vec F S512x128 .f32 :=
  VO.read (Elt F) (VO.writes (Elt F) VO.junk (runFirst c i arg2 harg2 arg3 harg3 arg4 harg4 arg5 harg5 arg6 harg6 arg7 harg7 h1 h2 h3 x0 x1 x2 x3).1)

/-- The three slabs stored at the first point tile the scratch buffer. -/
theorem coverScratch (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec F S512x4096 .f32) (x1 : Vec F S4096x128 .f32) (x2 : Vec F S384x128 .f32) (x3 : Vec F S1x128 .f32) (y : S3x4096x128.Idx) :
    ∃ pc ∈ (runFirst c i arg2 harg2 arg3 harg3 arg4 harg4 arg5 harg5 arg6 harg6 arg7 harg7 h1 h2 h3 x0 x1 x2 x3).2.1, y ∈ pc.1.set :=
  View.cover_of_tiledL (runFirst c i arg2 harg2 arg3 harg3 arg4 harg4 arg5 harg5 arg6 harg6 arg7 harg7 h1 h2 h3 x0 x1 x2 x3).2.1 S1x4096x128.size (by sl_kernel_rfl) y

/-- The scratch buffer after the first point: the three stored slabs read back. -/
def scrFirst (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec F S512x4096 .f32) (x1 : Vec F S4096x128 .f32) (x2 : Vec F S384x128 .f32) (x3 : Vec F S1x128 .f32) : Vec F S3x4096x128 .bf16 :=
  VS.read (Elt F) (VS.writes (Elt F) VS.junk (runFirst c i arg2 harg2 arg3 harg3 arg4 harg4 arg5 harg5 arg6 harg6 arg7 harg7 h1 h2 h3 x0 x1 x2 x3).2.1)

end Cert.KernelIdeal.Body

end
-- ==== Proof.KIData.lean ====
/-
  What the output block's buffer and the scratch buffer hold after each point, by recursion on the point, and the
  pipeline's proof data built from it.

  After the first point the scratch buffer holds the three projections and keeps them to the end. The output
  block's buffer after point t holds: at a point of support index 0, (block of B₀)·projection₀ + bias; at a point
  of support index s ≠ 0, what the point before left plus (block of B_s)·projection_s. It is written back to the
  output array after the points of support index 2, and not in between.
-/
import proofs.«117343_g7086696039036_cont_9to1c4b_243_11_alg».proof.Proof.KIOuts

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## After each point -/

/-- The first point. -/
abbrev t0 : Fin cfg0.N := ⟨0, by rw [show cfg0.N = 24 from N_0]; omega⟩

theorem first_h1 : condFirst (grid0.coords t0) := (hcondFirst t0).mpr rfl
theorem first_h2 : condStart (grid0.coords t0) := (hcondStart t0).mpr rfl
theorem first_h3 : ¬condAdd (grid0.coords t0) := fun h => (hcondAdd t0).mp h rfl

/-- The kept projections: what the first point leaves in the scratch buffer. -/
def kept (c : Dev nD) : Vec F S3x4096x128 .bf16 :=
  scrFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0)

/-- THE ACCUMULATION: the output block's buffer after the body at position `n`. -/
def outAt (c : Dev nD) : (n : ℕ) → n < cfg0.N → Vec F S512x128 .f32
  | 0, hn => outFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0)
  | n + 1, hn =>
    if h0 : (n + 1) % 3 = 0 then
      outStart c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _)
        (fun h => absurd ((hcondFirst ⟨n + 1, hn⟩).mp h) (Nat.succ_ne_zero n)) ((hcondStart ⟨n + 1, hn⟩).mpr h0) (fun h => (hcondAdd ⟨n + 1, hn⟩).mp h h0)
        (iblk m c 0 ⟨n + 1, hn⟩) (iblk m c 1 ⟨n + 1, hn⟩) (iblk m c 2 ⟨n + 1, hn⟩) (iblk m c 3 ⟨n + 1, hn⟩) (kept m c)
    else
      outAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _)
        (fun h => absurd ((hcondFirst ⟨n + 1, hn⟩).mp h) (Nat.succ_ne_zero n)) (fun h => h0 ((hcondStart ⟨n + 1, hn⟩).mp h)) ((hcondAdd ⟨n + 1, hn⟩).mpr h0)
        (iblk m c 0 ⟨n + 1, hn⟩) (iblk m c 1 ⟨n + 1, hn⟩) (iblk m c 2 ⟨n + 1, hn⟩) (iblk m c 3 ⟨n + 1, hn⟩) (outAt c n (Nat.lt_of_succ_lt hn)) (kept m c)

theorem outAt_first (c : Dev nD) (t : Fin cfg0.N) (hz : t.val = 0) :
    outAt m c t.val t.isLt = outFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0) := by
  obtain ⟨n, hn⟩ := t
  cases n with
  | zero => rfl
  | succ n => exact absurd hz (Nat.succ_ne_zero n)

theorem outAt_start (c : Dev nD) (t : Fin cfg0.N) (hz : t.val ≠ 0) (h0 : t.val % 3 = 0) :
    outAt m c t.val t.isLt = outStart c (grid0.coords t) (ms0 t) (hs0 t) (ms1 t) (hs1 t) (ms2 t) (hs2 t) (ms3 t) (hs3 t) (ms4 t) (hs4 t) scM (Memref.isWhole_whole _)
        (fun h => hz ((hcondFirst t).mp h)) ((hcondStart t).mpr h0) (fun h => (hcondAdd t).mp h h0)
        (iblk m c 0 t) (iblk m c 1 t) (iblk m c 2 t) (iblk m c 3 t) (kept m c) := by
  obtain ⟨n, hn⟩ := t
  cases n with
  | zero => exact absurd rfl hz
  | succ n => exact (dif_pos h0).trans rfl

theorem outAt_add (c : Dev nD) (t : Fin cfg0.N) (hz : t.val ≠ 0) (h0 : ¬t.val % 3 = 0) :
    outAt m c t.val t.isLt = outAdd c (grid0.coords t) (ms0 t) (hs0 t) (ms1 t) (hs1 t) (ms2 t) (hs2 t) (ms3 t) (hs3 t) (ms4 t) (hs4 t) scM (Memref.isWhole_whole _)
        (fun h => hz ((hcondFirst t).mp h)) (fun h => h0 ((hcondStart t).mp h)) ((hcondAdd t).mpr h0)
        (iblk m c 0 t) (iblk m c 1 t) (iblk m c 2 t) (iblk m c 3 t) (outAt m c (t.val - 1) (Nat.lt_of_le_of_lt (Nat.sub_le _ _) t.isLt)) (kept m c) := by
  obtain ⟨n, hn⟩ := t
  cases n with
  | zero => exact absurd rfl hz
  | succ n => exact (dif_neg h0).trans rfl

/-- The region's invariant before position `n`: before the first point the scratch holds anything; afterwards it
    holds the kept projections. The generator register is at some state throughout. -/
def PhiS (c : Dev nD) : (n : ℕ) → n ≤ cfg0.N → sProp 𝕄
  | 0, _ => Pipeline.ΦA spec0 c
  | n + 1, hn => iprop(iprop(owns (c : Thread nD τ) scM fullShare (kept m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM fullShare (kept m c)) ∗ (∃ r, prngReg c r)) := by
  cases n with
  | zero => exact absurd rfl hz
  | succ n => rfl

/-! ## The pipeline's proof data -/

/-- The arrays as the region finds them; after the body each input's buffer at its block and the output's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At every coordinate pair the body stores into the output block: it is started or added to. -/
theorem live4_all : ∀ i : grid0.Coords, cfg0.idle 4 i = false := by decide +kernel

/-- At a point of support index ≠ 0 the output block's buffer holds what the point before left: the point is not
    the first, and the block is written back only after the points of support index 2. -/
theorem before4_add (c : Dev nD) (t : Fin cfg0.N) (h0 : ¬t.val % 3 = 0) (d) :
    (dats m 0 c).before 4 t d = outAt m c (t.val - 1) (Nat.lt_of_le_of_lt (Nat.sub_le _ _) t.isLt) := by
  have hN : t.val < 24 := lt_of_lt_of_eq t.isLt (show cfg0.N = 24 from N_0)
  rw [Dat.before_out_kept _ 4 rfl t (by omega) (Bool.eq_false_iff.mpr fun h => by have := (flush0_4 _).mp h; dsimp only at this; omega)
    live4_all (fun _ _ => rfl)]
  dsimp only [dats]

end Cert.KernelIdeal.Body

end
-- ==== Proof.KIFrame.lean ====
/-
  The body's obligation at a generic point, by cases on the point's kind; the run of the whole program; and the
  frame: the program terminates, faults nowhere, and leaves its four argument arrays as it found them.
-/
import proofs.«117343_g7086696039036_cont_9to1c4b_243_11_alg».proof.Proof.KIData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (outAt m c t.val t.isLt) := by
  unfold Dat.leavesExact; rw [live4 t, after4]

set_option maxHeartbeats 4800000 in
/-- The body at the first point: the scratch and the output block are handed over at anything; the scratch comes back
    at the kept projections. -/
theorem sound_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves0, leaves1, leaves2, leaves3, leaves4]
  have hN : t.val < 24 := lt_of_lt_of_eq t.isLt (show cfg0.N = 24 from N_0)
  obtain rfl : t = t0 := Fin.ext hz
  rw [outAt_first m c t0 rfl]
  unfold outFirst kept scrFirst
  rw [PhiS_castSucc m c t0, PhiS_zero m c _ _ rfl, PhiA_eq]
  iintro ⟨⟨HS, Hg⟩, Ho, ⟨%d0, H0⟩, ⟨%d1, H1⟩, ⟨%d2, H2⟩, ⟨%d3, H3⟩, ⟨%d4, H4⟩⟩
  iapply ((runFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS Hg]
  · isplitl [HS]
    · unfold owns; iexists _; isplitr
      swap; · iexact HS
      ipureintro; exact View.read_writes_of_cover _ _ _ _ _ (coverScratch c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0))
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverFirst c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0))

set_option maxHeartbeats 4800000 in
/-- The body at a later point of support index 0: the scratch passes through at the kept projections. -/
theorem sound_start (c : Dev nD) (t : Fin cfg0.N) (hz : t.val ≠ 0) (h0 : t.val % 3 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves0, leaves1, leaves2, leaves3, leaves4]
  have hN : t.val < 24 := lt_of_lt_of_eq t.isLt (show cfg0.N = 24 from N_0)
  rw [PhiS_castSucc m c t, PhiS_pos m c _ _ hz]
  rw [outAt_start m c t hz h0]
  unfold outStart
  iintro ⟨⟨HS, Hg⟩, Ho, ⟨%d0, H0⟩, ⟨%d1, H1⟩, ⟨%d2, H2⟩, ⟨%d3, H3⟩, ⟨%d4, H4⟩⟩
  iapply ((runStart c (grid0.coords t) (ms0 t) (hs0 t) (ms1 t) (hs1 t) (ms2 t) (hs2 t) (ms3 t) (hs3 t) (ms4 t) (hs4 t) scM (Memref.isWhole_whole _) (fun h => hz ((hcondFirst t).mp h)) ((hcondStart t).mpr h0) (fun h => (hcondAdd t).mp h h0) (iblk m c 0 t) (iblk m c 1 t) (iblk m c 2 t) (iblk m c 3 t) (kept m c)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverStart c (grid0.coords t) (ms0 t) (hs0 t) (ms1 t) (hs1 t) (ms2 t) (hs2 t) (ms3 t) (hs3 t) (ms4 t) (hs4 t) scM (Memref.isWhole_whole _) (fun h => hz ((hcondFirst t).mp h)) ((hcondStart t).mpr h0) (fun h => (hcondAdd t).mp h h0) (iblk m c 0 t) (iblk m c 1 t) (iblk m c 2 t) (iblk m c 3 t) (kept m c))

set_option maxHeartbeats 4800000 in
/-- The body at a point of support index ≠ 0: the output block is handed over at what the point before left; the
    scratch passes through at the kept projections. -/
theorem sound_add (c : Dev nD) (t : Fin cfg0.N) (hz : t.val ≠ 0) (h0 : ¬t.val % 3 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves0, leaves1, leaves2, leaves3, leaves4]
  have hN : t.val < 24 := lt_of_lt_of_eq t.isLt (show cfg0.N = 24 from N_0)
  rw [PhiS_castSucc m c t, PhiS_pos m c _ _ hz]
  rw [outAt_add m c t hz h0]
  simp only [before4_add m c t h0]
  unfold outAdd
  iintro ⟨⟨HS, Hg⟩, Ho, ⟨%d0, H0⟩, ⟨%d1, H1⟩, ⟨%d2, H2⟩, ⟨%d3, H3⟩, ⟨%d4, H4⟩⟩
  iapply ((runAdd c (grid0.coords t) (ms0 t) (hs0 t) (ms1 t) (hs1 t) (ms2 t) (hs2 t) (ms3 t) (hs3 t) (ms4 t) (hs4 t) scM (Memref.isWhole_whole _) (fun h => hz ((hcondFirst t).mp h)) (fun h => h0 ((hcondStart t).mp h)) ((hcondAdd t).mpr h0) (iblk m c 0 t) (iblk m c 1 t) (iblk m c 2 t) (iblk m c 3 t) (outAt m c (t.val - 1) (Nat.lt_of_le_of_lt (Nat.sub_le _ _) t.isLt)) (kept m c)).2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverAdd c (grid0.coords t) (ms0 t) (hs0 t) (ms1 t) (hs1 t) (ms2 t) (hs2 t) (ms3 t) (hs3 t) (ms4 t) (hs4 t) scM (Memref.isWhole_whole _) (fun h => hz ((hcondFirst t).mp h)) (fun h => h0 ((hcondStart t).mp h)) ((hcondAdd t).mpr h0) (iblk m c 0 t) (iblk m c 1 t) (iblk m c 2 t) (iblk m c 3 t) (outAt m c (t.val - 1) (Nat.lt_of_le_of_lt (Nat.sub_le _ _) t.isLt)) (kept m c))

/-- The body at any point: one of the three kinds. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  · by_cases h0 : t.val % 3 = 0
    · exact sound_start m c t hz h0
    · exact sound_add m c t hz h0

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 24 := N_0; omega), PhiA_eq]
  iintro ⟨HS, Hg⟩
  isplitl [HS]
  · iexists _; iexact HS
  iexact Hg

/-! ## The run and the frame -/

set_option backward.isDefEq.respectTransparency.types false in
/-- Every weakly fair execution of the program terminates, nothing faulting, with every array of the pipeline at
    what the library computes from the proof data and every other argument as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs to the end, faults nowhere, and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KIPayloads.lean ====
/-
  The idealized kernel's arithmetic, read at one index.

  Over the extended reals a narrowing of the float format is the identity, a cast between the shapes [a, b] and
  [1, a, b] renames the index, and a matrix product into a zero accumulator is the plain sum of products over the
  one contracted axis. So each value the kernel stores is, entry by entry:

    the projection block   (0, k, c) ↦ Σ_j x k j · w j c
    the support product    (r, c)    ↦ Σ_k v r k · p (0, k, c)
    the first grid column  (r, c)    ↦ (Σ_k v r k · p (0, k, c)) + b (0, c)
    the later columns      (r, c)    ↦ o r c + Σ_k v r k · p (0, k, c)
-/
import proofs.«117343_g7086696039036_cont_9to1c4b_243_11_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadAt

open Cert.KernelIdeal Cert.KernelIdeal.Gen Idealize.ShloMosaic
open scoped BigOperators

/-! ## The two matrix products into a zero accumulator -/

/-- The left operand's index of the [4096,128] × [128,128] product keeps the output's row. -/
theorem lhsP_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

/-- The right operand's index of that product keeps the output's column. -/
theorem rhsP_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The [4096,128] × [128,128] product into zeros, at row `k` and column `c`: the sum over the 128 contracted
    positions. -/
theorem matmulP_at (a : FVec Ideal S4096x128 .bf16) (b : FVec Ideal S128x128 .bf16) (k : Fin 4096) (c : Fin 128) :
    matmul (F := Ideal) dot_S4096x128_S128x128_S4096x128_1_0_0_1_n_n none a b
        (constant (F := Ideal) S4096x128 .f32 0x00000000#32) (ValueIdx.ix2 k c)
      = ∑ j : Fin 128, a (ValueIdx.ix2 k j) * b (ValueIdx.ix2 j c) := by
  refine (Ideal.matmul_constant_zero_apply dot_S4096x128_S128x128_S4096x128_1_0_0_1_n_n none a b (ValueIdx.ix2 k c)).trans ?_
  rw [← Equiv.sum_comp (ValueIdx.contrEquiv1 dot_S4096x128_S128x128_S4096x128_1_0_0_1_n_n 128 rfl rfl).symm]
  refine Finset.sum_congr rfl fun j _ => ?_
  have hj := ValueIdx.contrEquiv1_symm_val dot_S4096x128_S128x128_S4096x128_1_0_0_1_n_n 128 rfl rfl j
  have el : dot_S4096x128_S128x128_S4096x128_1_0_0_1_n_n.lhsIdx (ValueIdx.ix2 k c)
      ((ValueIdx.contrEquiv1 dot_S4096x128_S128x128_S4096x128_1_0_0_1_n_n 128 rfl rfl).symm j) = ValueIdx.ix2 k j :=
    funext fun ax => Fin.ext (by
      match ax with
      | ⟨0, _⟩ => exact lhsP_0 _ _
      | ⟨1, _⟩ => exact (dot_S4096x128_S128x128_S4096x128_1_0_0_1_n_n.lhsIdx_val_of_single rfl _ _).trans hj)
  have er : dot_S4096x128_S128x128_S4096x128_1_0_0_1_n_n.rhsIdx (ValueIdx.ix2 k c)
      ((ValueIdx.contrEquiv1 dot_S4096x128_S128x128_S4096x128_1_0_0_1_n_n 128 rfl rfl).symm j) = ValueIdx.ix2 j c :=
    funext fun ax => Fin.ext (by
      match ax with
      | ⟨0, _⟩ => exact (dot_S4096x128_S128x128_S4096x128_1_0_0_1_n_n.rhsIdx_val_of_single rfl _ _).trans hj
      | ⟨1, _⟩ => exact rhsP_1 _ _)
  rw [el, er]

/-- The left operand's index of the [512,4096] × [4096,128] product keeps the output's row. -/
theorem lhsB_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl

/-- The right operand's index of that product keeps the output's column. -/
theorem rhsB_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- The [512,4096] × [4096,128] product into zeros, at row `r` and column `c`: the sum over the 4096 contracted
    positions. -/
theorem matmulB_at (a : FVec Ideal S512x4096 .bf16) (b : FVec Ideal S4096x128 .bf16) (r : Fin 512) (c : Fin 128) :
    matmul (F := Ideal) dot_S512x4096_S4096x128_S512x128_1_0_0_1_n_n none a b
        (constant (F := Ideal) S512x128 .f32 0x00000000#32) (ValueIdx.ix2 r c)
      = ∑ k : Fin 4096, a (ValueIdx.ix2 r k) * b (ValueIdx.ix2 k c) := by
  refine (Ideal.matmul_constant_zero_apply dot_S512x4096_S4096x128_S512x128_1_0_0_1_n_n none a b (ValueIdx.ix2 r c)).trans ?_
  rw [← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ValueIdx.ix2 r c)
      ((ValueIdx.contrEquiv1 dot_S512x4096_S4096x128_S512x128_1_0_0_1_n_n 4096 rfl rfl).symm k) = ValueIdx.ix2 r k :=
    funext fun ax => Fin.ext (by
      match ax with
      | ⟨0, _⟩ => exact lhsB_0 _ _
      | ⟨1, _⟩ => exact (dot_S512x4096_S4096x128_S512x128_1_0_0_1_n_n.lhsIdx_val_of_single rfl _ _).trans hk)
  have er : dot_S512x4096_S4096x128_S512x128_1_0_0_1_n_n.rhsIdx (ValueIdx.ix2 r c)
      ((ValueIdx.contrEquiv1 dot_S512x4096_S4096x128_S512x128_1_0_0_1_n_n 4096 rfl rfl).symm k) = ValueIdx.ix2 k c :=
    funext fun ax => Fin.ext (by
      match ax with
      | ⟨0, _⟩ => exact (dot_S512x4096_S4096x128_S512x128_1_0_0_1_n_n.rhsIdx_val_of_single rfl _ _).trans hk
      | ⟨1, _⟩ => exact rhsB_1 _ _)
  rw [el, er]

/-! ## The stored values at an index -/

/-- The projection block through the first weight slab, at `(0, k, c)`. -/
theorem pay2_at (x : Vec Ideal S4096x128 .f32) (w : Vec Ideal S128x128 .f32) (k : Fin 4096) (c : Fin 128) :
    k0_pay2 (F := Ideal) x w (ValueIdx.ix3 (0 : Fin 1) k c) = ∑ j : Fin 128, x (ValueIdx.ix2 k j) * w (ValueIdx.ix2 j c) := by
  unfold k0_pay2 k0_pay1
  refine (ValueIdx.shapeCast_ab_1ab_apply _ _ (0 : Fin 1) k c).trans ?_
  exact matmulP_at _ _ k c

/-- The projection block through the second weight slab, at `(0, k, c)`. -/
theorem pay3_at (x : Vec Ideal S4096x128 .f32) (w : Vec Ideal S128x128 .f32) (k : Fin 4096) (c : Fin 128) :
    k0_pay3 (F := Ideal) x w (ValueIdx.ix3 (0 : Fin 1) k c) = ∑ j : Fin 128, x (ValueIdx.ix2 k j) * w (ValueIdx.ix2 j c) := by
  unfold k0_pay3 k0_pay1
  refine (ValueIdx.shapeCast_ab_1ab_apply _ _ (0 : Fin 1) k c).trans ?_
  exact matmulP_at _ _ k c

/-- The projection block through the third weight slab, at `(0, k, c)`. -/
theorem pay4_at (x : Vec Ideal S4096x128 .f32) (w : Vec Ideal S128x128 .f32) (k : Fin 4096) (c : Fin 128) :
    k0_pay4 (F := Ideal) x w (ValueIdx.ix3 (0 : Fin 1) k c) = ∑ j : Fin 128, x (ValueIdx.ix2 k j) * w (ValueIdx.ix2 j c) := by
  unfold k0_pay4 k0_pay1
  refine (ValueIdx.shapeCast_ab_1ab_apply _ _ (0 : Fin 1) k c).trans ?_
  exact matmulP_at _ _ k c

/-- A block of support rows times a stored projection, at `(r, c)`. -/
theorem pay5_at (v5 : Vec Ideal S512x4096 .f32) (v9 : Vec Ideal S1x4096x128 .bf16) (r : Fin 512) (c : Fin 128) :
    k0_pay5 (F := Ideal) v5 v9 (ValueIdx.ix2 r c)
      = ∑ k : Fin 4096, v5 (ValueIdx.ix2 r k) * v9 (ValueIdx.ix3 (0 : Fin 1) k c) := by
  unfold k0_pay5
  refine (matmulB_at _ _ r c).trans ?_
  refine Finset.sum_congr rfl fun k _ => ?_
  rw [shapeCast_self]
  exact congrArg (v5 (ValueIdx.ix2 r k) * ·) (ValueIdx.shapeCast_1ab_ab_apply v9 _ k c)

/-- The first grid column: that product plus the bias row, at `(r, c)`. -/
theorem pay6_at (v5 : Vec Ideal S512x4096 .f32) (v9 : Vec Ideal S1x4096x128 .bf16) (v18 : Vec Ideal S1x128 .f32)
    (r : Fin 512) (c : Fin 128) :
    k0_pay6 (F := Ideal) v5 v9 v18 (ValueIdx.ix2 r c)
      = (∑ k : Fin 4096, v5 (ValueIdx.ix2 r k) * v9 (ValueIdx.ix3 (0 : Fin 1) k c)) + v18 (ValueIdx.ix2 (0 : Fin 1) c) := by
  unfold k0_pay6
  refine (ValueIdx.addf_apply _ _ _).trans ?_
  rw [pay5_at, shapeCast_self]
  exact congrArg ((∑ k : Fin 4096, v5 (ValueIdx.ix2 r k) * v9 (ValueIdx.ix3 (0 : Fin 1) k c)) + ·)
    (ValueIdx.broadcastTo_1b_ab_apply v18 _ r c)

/-- The later grid columns: what the output block holds plus that product, at `(r, c)`. -/
theorem pay7_at (v5 : Vec Ideal S512x4096 .f32) (v9 : Vec Ideal S1x4096x128 .bf16) (v18 : Vec Ideal S512x128 .f32)
    (r : Fin 512) (c : Fin 128) :
    k0_pay7 (F := Ideal) v5 v9 v18 (ValueIdx.ix2 r c)
      = v18 (ValueIdx.ix2 r c) + ∑ k : Fin 4096, v5 (ValueIdx.ix2 r k) * v9 (ValueIdx.ix3 (0 : Fin 1) k c) := by
  unfold k0_pay7
  refine (ValueIdx.addf_apply _ _ _).trans ?_
  rw [pay5_at, shapeCast_self]

end Cert.KernelIdeal.PayloadAt

end
-- ==== Proof.Spec.lean ====
/-
  The graph-convolution layer as one function of its four argument arrays, over the extended reals.

  With features `X` (4096 × 128), three support matrices `B s` (4096 × 4096 each), a weight `W` (384 × 128, read as
  three 128-row slabs) and a bias row `b`:

    proj s k c    = Σ_j X k j · W (128·s + j) c            -- the features projected through slab s
    contrib s r c = Σ_k B s r k · proj s k c              -- support s applied to that projection
    layer r c     = ((contrib 0 r c + b c) + contrib 1 r c) + contrib 2 r c

  The grouping of `layer` is the order in which the three contributions and the bias are added up.
-/
import Idealize.ShloMosaic.PureOps.Ideal

noncomputable section

namespace Cert.GraphConv

open scoped BigOperators

/-- Row `128·s + j` of the 384-row weight: row `j` of slab `s`. -/
def slabRow (s : Fin 3) (j : Fin 128) : Fin 384 := ⟨128 * s.val + j.val, by omega⟩

/-- The features projected through weight slab `s`, at row `k` and column `c`. -/
def proj (X : Fin 4096 → Fin 128 → EReal) (W : Fin 384 → Fin 128 → EReal) (s : Fin 3) (k : Fin 4096) (c : Fin 128) : EReal :=
  ∑ j : Fin 128, X k j * W (slabRow s j) c

/-- Support matrix `s` applied to the projection through slab `s`, at row `r` and column `c`. -/
def contrib (X : Fin 4096 → Fin 128 → EReal) (B : Fin 3 → Fin 4096 → Fin 4096 → EReal) (W : Fin 384 → Fin 128 → EReal)
    (s : Fin 3) (r : Fin 4096) (c : Fin 128) : EReal :=
  ∑ k : Fin 4096, B s r k * proj X W s k c

/-- The layer's output at row `r` and column `c`: the three contributions and the bias, added in this order. -/
def layer (X : Fin 4096 → Fin 128 → EReal) (B : Fin 3 → Fin 4096 → Fin 4096 → EReal) (W : Fin 384 → Fin 128 → EReal)
    (b : Fin 128 → EReal) (r : Fin 4096) (c : Fin 128) : EReal :=
  ((contrib X B W 0 r c + b c) + contrib X B W 1 r c) + contrib X B W 2 r c

end Cert.GraphConv

end
-- ==== Proof.KIPieces.lean ====
/-
  What the body leaves in the output block and in the scratch buffer, entry by entry, over the extended reals.

  A window of a buffer at an offset reads the buffer at the shifted index; the one store into the output block covers
  it, so the block after a point is that store's value; and each stored value is the sum of products worked out for
  it. So, with v the block of support rows, p the kept projections, o the block as the point before left it and b the
  bias row:

    after a point of support index s ≠ 0     (r, c) ↦ o r c + Σ_k v r k · p (s, k, c)
    after a later point of support index 0   (r, c) ↦ (Σ_k v r k · p (0, k, c)) + b (0, c)
-/
import proofs.«117343_g7086696039036_cont_9to1c4b_243_11_alg».proof.Proof.KIOuts
import proofs.«117343_g7086696039036_cont_9to1c4b_243_11_alg».proof.Proof.KIPayloads
import proofs.«117343_g7086696039036_cont_9to1c4b_243_11_alg».proof.Proof.Spec
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GraphConv (slabRow)

variable {F : FTy → Type} [FloatOps F]

local notation "𝕄" => MT nD τ sig Unit (Elt F) ℕ (UR sig nD τ) ℕ

/-! ## Windows of a buffer at an offset -/

theorem zero2_eq : (![0, 0] : Fin 2 → Nat) = fun _ => 0 := funext fun a => by fin_cases a <;> rfl

/-- One slab of the scratch, the window of sizes [1, 4096, 128] at offset `(s, 0, 0)`, read at `(0, k, cc)`, is the
    scratch at `(s, k, cc)`. -/
theorem ld_slab_at (xs : Vec F S3x4096x128 .bf16) (s : Fin 3) (o : Fin 3 → Nat) (ho : o = ![s.val, 0, 0])
    (inb : ∀ a, o a + S1x4096x128.size a ≤ S3x4096x128.size a) (k : Fin 4096) (cc : Fin 128) :
    View.ld (Val := Elt F) xs (Rect.unit (s := S3x4096x128) o S1x4096x128.size inb) (ValueIdx.ix3 (0 : Fin 1) k cc)
      = xs (ValueIdx.ix3 s k cc) := by
  subst ho
  refine congrArg xs (funext fun ax => Fin.ext ?_)
  match ax with
  | ⟨0, _⟩ => show s.val + 1 * 0 = s.val; omega
  | ⟨1, _⟩ => show 0 + 1 * k.val = k.val; omega
  | ⟨2, _⟩ => show 0 + 1 * cc.val = cc.val; omega

/-- One slab of the weight, the window of sizes [128, 128] at row offset `128 · s`, read at `(j, cc)`, is the weight at
    row `128 · s + j`. -/
theorem ld_wslab_at (x2 : Vec F S384x128 .f32) (s : Fin 3) (o : Fin 2 → Nat) (ho : o = ![128 * s.val, 0])
    (inb : ∀ a, o a + S128x128.size a ≤ S384x128.size a) (j cc : Fin 128) :
    View.ld (Val := Elt F) x2 (Rect.unit (s := S384x128) o S128x128.size inb) (ValueIdx.ix2 j cc)
      = x2 (ValueIdx.ix2 (slabRow s j) cc) := by
  subst ho
  refine congrArg x2 (funext fun ax => Fin.ext ?_)
  match ax with
  | ⟨0, _⟩ => show 128 * s.val + 1 * j.val = 128 * s.val + j.val; omega
  | ⟨1, _⟩ => show 0 + 1 * cc.val = cc.val; omega

/-! ## The output block after a point that does not store the projections -/

/-- After a point of support index `s ≠ 0`: what the block held plus the block of support rows times slab `s` of the
    kept projections. -/
theorem outAdd_at (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : ¬condStart i) (h3 : condAdd i) (x0 : Vec Ideal S512x4096 .f32) (x1 : Vec Ideal S4096x128 .f32) (x2 : Vec Ideal S384x128 .f32) (x3 : Vec Ideal S1x128 .f32) (xo : Vec Ideal S512x128 .f32) (xs : Vec Ideal S3x4096x128 .bf16)
    (s : Fin 3) (hs : k0_off1 i = ![s.val, 0, 0]) (r : Fin 512) (cc : Fin 128) :
    outAdd (F := Ideal) c i arg2 harg2 arg3 harg3 arg4 harg4 arg5 harg5 arg6 harg6 arg7 harg7 h1 h2 h3 x0 x1 x2 x3 xo xs (ValueIdx.ix2 r cc)
      = xo (ValueIdx.ix2 r cc) + ∑ k : Fin 4096, x0 (ValueIdx.ix2 r k) * xs (ValueIdx.ix3 s k cc) := by
  unfold outAdd
  rw [View.read_writes_eq_canon _ _ _ (coverAdd c i arg2 harg2 arg3 harg3 arg4 harg4 arg5 harg5 arg6 harg6 arg7 harg7 h1 h2 h3 x0 x1 x2 x3 xo xs)]
  unfold runAdd
  dsimp only
  rw [View.canon_unit_zero zero2_eq]
  simp only [View.readAt_eq_ld, harg2.read_unread, harg6.read_unread, harg7.read_unread,
    View.ld_unit_zero (S := S512x4096) zero2_eq, View.ld_unit_zero (S := S512x128) zero2_eq]
  refine (PayloadAt.pay7_at _ _ _ r cc).trans ?_
  refine congrArg (xo (ValueIdx.ix2 r cc) + ·) (Finset.sum_congr rfl fun k _ => ?_)
  exact congrArg (x0 (ValueIdx.ix2 r k) * ·) (ld_slab_at xs s (k0_off1 i) hs _ k cc)

/-- After a later point of support index 0 (`s` is 0 there; the statement does not need it): the block of support rows
    times slab `s` of the kept projections, plus the bias row. -/
theorem outStart_at (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : ¬condFirst i) (h2 : condStart i) (h3 : ¬condAdd i) (x0 : Vec Ideal S512x4096 .f32) (x1 : Vec Ideal S4096x128 .f32) (x2 : Vec Ideal S384x128 .f32) (x3 : Vec Ideal S1x128 .f32) (xs : Vec Ideal S3x4096x128 .bf16)
    (s : Fin 3) (hs : k0_off1 i = ![s.val, 0, 0]) (r : Fin 512) (cc : Fin 128) :
    outStart (F := Ideal) c i arg2 harg2 arg3 harg3 arg4 harg4 arg5 harg5 arg6 harg6 arg7 harg7 h1 h2 h3 x0 x1 x2 x3 xs (ValueIdx.ix2 r cc)
      = (∑ k : Fin 4096, x0 (ValueIdx.ix2 r k) * xs (ValueIdx.ix3 s k cc)) + x3 (ValueIdx.ix2 (0 : Fin 1) cc) := by
  unfold outStart
  rw [View.read_writes_eq_canon _ _ _ (coverStart c i arg2 harg2 arg3 harg3 arg4 harg4 arg5 harg5 arg6 harg6 arg7 harg7 h1 h2 h3 x0 x1 x2 x3 xs)]
  unfold runStart
  dsimp only
  rw [View.canon_unit_zero zero2_eq]
  simp only [View.readAt_eq_ld, harg2.read_unread, harg5.read_unread, harg7.read_unread,
    View.ld_unit_zero (S := S512x4096) zero2_eq, View.ld_unit_zero (S := S1x128) zero2_eq]
  refine (PayloadAt.pay6_at _ _ _ r cc).trans ?_
  refine congrArg (· + x3 (ValueIdx.ix2 (0 : Fin 1) cc)) (Finset.sum_congr rfl fun k _ => ?_)
  exact congrArg (x0 (ValueIdx.ix2 r k) * ·) (ld_slab_at xs s (k0_off1 i) hs _ k cc)

end Cert.KernelIdeal.Body

end
-- ==== Proof.KIPiecesFirst.lean ====
/-
  The first point, entry by entry, over the extended reals.

  The three projections are stored into the three slabs of the scratch buffer, windows of sizes [1, 4096, 128] at
  offsets (0, 0, 0), (1, 0, 0), (2, 0, 0). An index (s, k, c) lies in the window of offset (s, 0, 0) and in no other,
  at the window's own index (0, k, c): so the buffer holds there what the store into slab s stored, the features
  projected through the 128 rows of the weight that start at row 128 · s:

    the scratch after the first point   (s, k, c) ↦ Σ_j x k j · w (128 · s + j) c

  The same point then reads slab 0 back, just stored, multiplies the block of support rows v by it, adds the bias row
  b and stores the result over the whole output block:

    the block after the first point     (r, c) ↦ (Σ_k v r k · (Σ_j x k j · w j c)) + b (0, c)
-/
import proofs.«117343_g7086696039036_cont_9to1c4b_243_11_alg».proof.Proof.KIPieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GraphConv (slabRow)

variable {F : FTy → Type} [FloatOps F]

local notation "𝕄" => MT nD τ sig Unit (Elt F) ℕ (UR sig nD τ) ℕ

/-! ## The slabs of the scratch buffer -/

/-- The window of slab `s` puts its own index `(0, k, cc)` at `(s, k, cc)`. -/
theorem slab_emb_eq (s : Fin 3) (o : Fin 3 → Nat) (ho : o = ![s.val, 0, 0])
    (inb : ∀ a, o a + S1x4096x128.size a ≤ S3x4096x128.size a) (k : Fin 4096) (cc : Fin 128) :
    (Rect.unit (s := S3x4096x128) o S1x4096x128.size inb).emb (ValueIdx.ix3 (0 : Fin 1) k cc) = ValueIdx.ix3 s k cc := by
  subst ho
  refine funext fun ax => Fin.ext ?_
  match ax with
  | ⟨0, _⟩ => show s.val + 1 * 0 = s.val; omega
  | ⟨1, _⟩ => show 0 + 1 * k.val = k.val; omega
  | ⟨2, _⟩ => show 0 + 1 * cc.val = cc.val; omega

/-- An index of slab `s` is outside the window of another slab `t`: its first coordinate is `s`, the window's are `t`. -/
theorem slab_not_mem (s t : Fin 3) (hst : s ≠ t) (o : Fin 3 → Nat) (ho : o = ![t.val, 0, 0])
    (inb : ∀ a, o a + S1x4096x128.size a ≤ S3x4096x128.size a) (k : Fin 4096) (cc : Fin 128) :
    ValueIdx.ix3 s k cc ∉ (Rect.unit (s := S3x4096x128) o S1x4096x128.size inb).set := by
  subst ho
  rw [Rect.mem_set_unit]
  intro h
  have h0 : t.val ≤ s.val ∧ s.val < t.val + 1 := h 0
  exact hst (Fin.ext (by omega))

/-- Where the last store was into slab `s`, the buffer at `(s, k, cc)` holds that store's value at `(0, k, cc)`. -/
theorem canon_slab_hit_at (s : Fin 3) (o : Fin 3 → Nat) (ho : o = ![s.val, 0, 0])
    (inb : ∀ a, o a + S1x4096x128.size a ≤ S3x4096x128.size a) (w : Vec F S1x4096x128 .bf16)
    (L : List (View.Piece (Elt F) S3x4096x128 .bf16)) (k : Fin 4096) (cc : Fin 128) :
    View.canon (⟨Rect.unit (s := S3x4096x128) o S1x4096x128.size inb, w⟩ :: L) (ValueIdx.ix3 s k cc)
      = w (ValueIdx.ix3 (0 : Fin 1) k cc) := by
  have e := View.canon_cons_emb (Val := Elt F) (Rect.unit (s := S3x4096x128) o S1x4096x128.size inb) w L
    (ValueIdx.ix3 (0 : Fin 1) k cc)
  rw [slab_emb_eq s o ho inb k cc] at e
  exact e

/-- Where the last store was into another slab `t`, the buffer at `(s, k, cc)` holds what the earlier stores left. -/
theorem canon_slab_miss_at (s t : Fin 3) (hst : s ≠ t) (o : Fin 3 → Nat) (ho : o = ![t.val, 0, 0])
    (inb : ∀ a, o a + S1x4096x128.size a ≤ S3x4096x128.size a) (w : Vec F S1x4096x128 .bf16)
    (L : List (View.Piece (Elt F) S3x4096x128 .bf16)) (k : Fin 4096) (cc : Fin 128) :
    View.canon (⟨Rect.unit (s := S3x4096x128) o S1x4096x128.size inb, w⟩ :: L) (ValueIdx.ix3 s k cc)
      = View.canon L (ValueIdx.ix3 s k cc) :=
  View.canon_cons_of_not_mem _ L (slab_not_mem s t hst o ho inb k cc)

theorem fin3_cases : ∀ t : Fin 3, t = 0 ∨ t = 1 ∨ t = 2 := by decide

/-! ## The scratch buffer after the first point -/

/-- Slab `s` of the scratch after the first point: the features projected through the rows `128 · s + j` of the weight. -/
theorem scrFirst_at (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec Ideal S512x4096 .f32) (x1 : Vec Ideal S4096x128 .f32) (x2 : Vec Ideal S384x128 .f32) (x3 : Vec Ideal S1x128 .f32)
    (s : Fin 3) (k : Fin 4096) (cc : Fin 128) :
    scrFirst (F := Ideal) c i arg2 harg2 arg3 harg3 arg4 harg4 arg5 harg5 arg6 harg6 arg7 harg7 h1 h2 h3 x0 x1 x2 x3 (ValueIdx.ix3 s k cc)
      = ∑ j : Fin 128, x1 (ValueIdx.ix2 k j) * x2 (ValueIdx.ix2 (slabRow s j) cc) := by
  unfold scrFirst
  rw [View.read_writes_junk_eq_canon]
  unfold runFirst
  dsimp only
  sl_unfold_words
  rcases fin3_cases s with rfl | rfl | rfl
  · refine (canon_slab_miss_at 0 2 (by decide) _ rfl _ _ _ k cc).trans ?_
    refine (canon_slab_miss_at 0 1 (by decide) _ rfl _ _ _ k cc).trans ?_
    refine (canon_slab_hit_at 0 _ rfl _ _ _ k cc).trans ?_
    simp only [View.readAt_eq_ld, harg3.read_unread, harg4.read_unread, View.ld_unit_zero (S := S4096x128) zero2_eq]
    refine (PayloadAt.pay2_at _ _ k cc).trans (Finset.sum_congr rfl fun j _ => ?_)
    exact congrArg (x1 (ValueIdx.ix2 k j) * ·) (ld_wslab_at x2 0 _ rfl _ j cc)
  · refine (canon_slab_miss_at 1 2 (by decide) _ rfl _ _ _ k cc).trans ?_
    refine (canon_slab_hit_at 1 _ rfl _ _ _ k cc).trans ?_
    simp only [View.readAt_eq_ld, harg3.read_unread, harg4.read_unread, View.ld_unit_zero (S := S4096x128) zero2_eq]
    refine (PayloadAt.pay3_at _ _ k cc).trans (Finset.sum_congr rfl fun j _ => ?_)
    exact congrArg (x1 (ValueIdx.ix2 k j) * ·) (ld_wslab_at x2 1 _ rfl _ j cc)
  · refine (canon_slab_hit_at 2 _ rfl _ _ _ k cc).trans ?_
    simp only [View.readAt_eq_ld, harg3.read_unread, harg4.read_unread, View.ld_unit_zero (S := S4096x128) zero2_eq]
    refine (PayloadAt.pay4_at _ _ k cc).trans (Finset.sum_congr rfl fun j _ => ?_)
    exact congrArg (x1 (ValueIdx.ix2 k j) * ·) (ld_wslab_at x2 2 _ rfl _ j cc)

/-! ## The output block after the first point -/

/-- After the first point: the block of support rows times the projection through the first 128 rows of the weight —
    read back from slab 0 of the scratch, where the point has just stored it —, plus the bias row. -/
theorem outFirst_at (c : Dev nD) (i : grid0.Coords) (arg2 : Memref sig .tc .vmem S512x4096 .f32) (harg2 : arg2.IsWhole) (arg3 : Memref sig .tc .vmem S4096x128 .f32) (harg3 : arg3.IsWhole) (arg4 : Memref sig .tc .vmem S384x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S3x4096x128 .bf16) (harg7 : arg7.IsWhole)
    (h1 : condFirst i) (h2 : condStart i) (h3 : ¬condAdd i) (x0 : Vec Ideal S512x4096 .f32) (x1 : Vec Ideal S4096x128 .f32) (x2 : Vec Ideal S384x128 .f32) (x3 : Vec Ideal S1x128 .f32)
    (hs : k0_off1 i = ![0, 0, 0]) (r : Fin 512) (cc : Fin 128) :
    outFirst (F := Ideal) c i arg2 harg2 arg3 harg3 arg4 harg4 arg5 harg5 arg6 harg6 arg7 harg7 h1 h2 h3 x0 x1 x2 x3 (ValueIdx.ix2 r cc)
      = (∑ k : Fin 4096, x0 (ValueIdx.ix2 r k) * (∑ j : Fin 128, x1 (ValueIdx.ix2 k j) * x2 (ValueIdx.ix2 (slabRow 0 j) cc)))
        + x3 (ValueIdx.ix2 (0 : Fin 1) cc) := by
  unfold outFirst
  rw [View.read_writes_eq_canon _ _ _ (coverFirst c i arg2 harg2 arg3 harg3 arg4 harg4 arg5 harg5 arg6 harg6 arg7 harg7 h1 h2 h3 x0 x1 x2 x3)]
  unfold runFirst
  dsimp only
  sl_unfold_words
  rw [View.canon_unit_zero zero2_eq]
  simp only [View.readAt_eq_ld, harg2.read_unread, harg5.read_unread,
    View.ld_unit_zero (S := S512x4096) zero2_eq, View.ld_unit_zero (S := S1x128) zero2_eq]
  refine (PayloadAt.pay6_at _ _ _ r cc).trans ?_
  refine congrArg (· + x3 (ValueIdx.ix2 (0 : Fin 1) cc)) (Finset.sum_congr rfl fun k _ => ?_)
  refine congrArg (x0 (ValueIdx.ix2 r k) * ·) ?_
  refine (ld_slab_at (F := Ideal) _ 0 _ hs _ k cc).trans ?_
  rw [View.read_writes_junk_eq_canon]
  refine (canon_slab_miss_at 0 2 (by decide) _ rfl _ _ _ k cc).trans ?_
  refine (canon_slab_miss_at 0 1 (by decide) _ rfl _ _ _ k cc).trans ?_
  refine (canon_slab_hit_at 0 _ rfl _ _ _ k cc).trans ?_
  simp only [harg3.read_unread, harg4.read_unread, View.ld_unit_zero (S := S4096x128) zero2_eq]
  refine (PayloadAt.pay2_at _ _ k cc).trans (Finset.sum_congr rfl fun j _ => ?_)
  exact congrArg (x1 (ValueIdx.ix2 k j) * ·) (ld_wslab_at x2 0 _ rfl _ j cc)

end Cert.KernelIdeal.Body

end
-- ==== Proof.KIBlocks.lean ====
/-
  The kernel's windows, read at explicit coordinates.

  Before the region the host reshapes the bias row [128] to [1, 128] and the three support matrices [3, 4096, 4096]
  to one [12288, 4096] array whose row `4096·s + R` is row `R` of matrix `s`. The grid has 8 × 3 points, point `t`
  at coordinates `(t / 3, t % 3)`. Window 0 hands the body the 512 rows `512·(t / 3) …` of matrix `t % 3` (block row
  `8·(t % 3) + t / 3` of the reshaped array); windows 1, 2 and 3 hand it the whole feature array, the whole weight and
  the whole bias row; window 4, the output, is block row `t / 3` of the 4096 × 128 result.
-/
import proofs.«117343_g7086696039036_cont_9to1c4b_243_11_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-! ## The two arrays the host writes before the region -/

/-- The reshaped support matrices as the region finds them: the reshape of the argument. -/
theorem V_v1_eq (c : Dev nD) :
    (V m c main_v1 : S12288x4096.Idx → Elt F .f32)
      = shapeCast S12288x4096 (m ((c : Thread nD τ).loc main_arg1) : S3x4096x4096.Idx → Elt F .f32)
          shapeCasts_S3x4096x4096_S12288x4096 := by
  dsimp only [Gen.V, Gen.hostOps0]; after_results; rfl

/-- Row `4096·s + R` of the reshaped array is row `R` of support matrix `s`. -/
theorem V_v1_at (c : Dev nD) (s : Fin 3) (R : Fin 4096) (k : Fin 4096) :
    (V m c main_v1 : S12288x4096.Idx → Elt F .f32) (ValueIdx.ix2 ⟨4096 * s.val + R.val, by omega⟩ k)
      = m ((c : Thread nD τ).loc main_arg1) (ValueIdx.ix3 s R k) := by
  rw [V_v1_eq]
  exact shapeCast_apply _ _ _ (ValueIdx.ix3 s R k) (by
    rw [Shape.rowMajor_val_three, Shape.rowMajor_val_two]
    show (s.val * 4096 + R.val) * 4096 + k.val = (4096 * s.val + R.val) * 4096 + k.val
    omega)

/-- The reshaped bias row as the region finds it: the reshape of the argument. -/
theorem V_v0_eq (c : Dev nD) :
    (V m c main_v0 : S1x128.Idx → Elt F .f32)
      = shapeCast S1x128 (m ((c : Thread nD τ).loc main_arg3) : S128.Idx → Elt F .f32) shapeCasts_S128_S1x128 := by
  dsimp only [Gen.V, Gen.hostOps0]; after_results; rfl

/-- Column `cc` of the one-row array is entry `cc` of the bias. -/
theorem V_v0_at (c : Dev nD) (cc : Fin 128) :
    (V m c main_v0 : S1x128.Idx → Elt F .f32) (ValueIdx.ix2 (0 : Fin 1) cc)
      = m ((c : Thread nD τ).loc main_arg3) (ValueIdx.ix1 cc) := by
  rw [V_v0_eq]
  exact shapeCast_apply _ _ _ (ValueIdx.ix1 cc) (by
    rw [Shape.rowMajor_val_one, Shape.rowMajor_val_two]
    show cc.val = 0 * 128 + cc.val
    omega)

/-! ## The block indices, decided over the grid -/

/-- Point `t`'s block indices: window 0 at block row `8·(t % 3) + t / 3`, the whole-array windows at block 0,
    the output at block row `t / 3`. -/
theorem idx_facts : ∀ t : Fin cfg0.N,
    win0_0.index t (0 : Fin 2) = (t.val % 3) * 8 + t.val / 3 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 3 ∧ win0_4.index t (1 : Fin 2) = 0 :=
  (by decide +kernel : ∀ t : Fin grid0.N, _)

theorem t_lt (t : Fin cfg0.N) : t.val < 24 := by
  have h : t.val < grid0.N := t.isLt
  rw [N_0] at h
  exact h

/-! ## The input windows' blocks -/

/-- Window 0 at point `t`: rows `512·(t / 3) + r` of support matrix `t % 3`. -/
theorem iblk0_at (c : Dev nD) (t : Fin cfg0.N) (r : Fin 512) (k : Fin 4096) :
    (iblk m c 0 t : Vec F S512x4096 .f32) (ValueIdx.ix2 r k)
      = m ((c : Thread nD τ).loc main_arg1)
          (ValueIdx.ix3 (⟨t.val % 3, by omega⟩ : Fin 3) (⟨512 * (t.val / 3) + r.val, by have := t_lt t; omega⟩ : Fin 4096) k) := by
  have ht := t_lt t
  obtain ⟨e0, e1, -⟩ := idx_facts t
  show V m c main_v1 (((cfg0.win 0).blk t).view.emb (ValueIdx.ix2 r k)) = _
  have hidx : ((cfg0.win 0).blk t).view.emb (ValueIdx.ix2 r k)
      = (ValueIdx.ix2 (⟨4096 * (t.val % 3) + (512 * (t.val / 3) + r.val), by omega⟩ : Fin 12288) k : S12288x4096.Idx) := by
    funext a; apply Fin.ext
    match a with
    | ⟨0, _⟩ =>
      show win0_0.index t (0 : Fin 2) * 512 + 1 * r.val = 4096 * (t.val % 3) + (512 * (t.val / 3) + r.val)
      have hr := r.isLt; omega
    | ⟨1, _⟩ =>
      show win0_0.index t (1 : Fin 2) * 4096 + 1 * k.val = k.val
      omega
  rw [hidx]
  exact V_v1_at m c (⟨t.val % 3, by omega⟩ : Fin 3) (⟨512 * (t.val / 3) + r.val, by omega⟩ : Fin 4096) k

/-- Window 1 at every point: the whole feature array. -/
theorem iblk1_at (c : Dev nD) (t : Fin cfg0.N) (k : Fin 4096) (j : Fin 128) :
    (iblk m c 1 t : Vec F S4096x128 .f32) (ValueIdx.ix2 k j) = m ((c : Thread nD τ).loc main_arg0) (ValueIdx.ix2 k j) := by
  obtain ⟨-, -, e0, e1, -⟩ := idx_facts t
  show V m c main_arg0 (((cfg0.win 1).blk t).view.emb (ValueIdx.ix2 k j)) = _
  rw [V_main_arg0]
  refine congrArg (m ((c : Thread nD τ).loc main_arg0)) ?_
  funext a; apply Fin.ext
  match a with
  | ⟨0, _⟩ => show win0_1.index t (0 : Fin 2) * 4096 + 1 * k.val = k.val; omega
  | ⟨1, _⟩ => show win0_1.index t (1 : Fin 2) * 128 + 1 * j.val = j.val; omega

/-- Window 2 at every point: the whole weight. -/
theorem iblk2_at (c : Dev nD) (t : Fin cfg0.N) (k : Fin 384) (j : Fin 128) :
    (iblk m c 2 t : Vec F S384x128 .f32) (ValueIdx.ix2 k j) = m ((c : Thread nD τ).loc main_arg2) (ValueIdx.ix2 k j) := by
  obtain ⟨-, -, -, -, e0, e1, -⟩ := idx_facts t
  show V m c main_arg2 (((cfg0.win 2).blk t).view.emb (ValueIdx.ix2 k j)) = _
  rw [V_main_arg2]
  refine congrArg (m ((c : Thread nD τ).loc main_arg2)) ?_
  funext a; apply Fin.ext
  match a with
  | ⟨0, _⟩ => show win0_2.index t (0 : Fin 2) * 384 + 1 * k.val = k.val; omega
  | ⟨1, _⟩ => show win0_2.index t (1 : Fin 2) * 128 + 1 * j.val = j.val; omega

/-- Window 3 at every point: the bias row. -/
theorem iblk3_at (c : Dev nD) (t : Fin cfg0.N) (cc : Fin 128) :
    (iblk m c 3 t : Vec F S1x128 .f32) (ValueIdx.ix2 (0 : Fin 1) cc) = m ((c : Thread nD τ).loc main_arg3) (ValueIdx.ix1 cc) := by
  obtain ⟨-, -, -, -, -, -, e0, e1, -⟩ := idx_facts t
  show V m c main_v0 (((cfg0.win 3).blk t).view.emb (ValueIdx.ix2 (0 : Fin 1) cc)) = _
  have hidx : ((cfg0.win 3).blk t).view.emb (ValueIdx.ix2 (0 : Fin 1) cc) = (ValueIdx.ix2 (0 : Fin 1) cc : S1x128.Idx) := by
    funext a; apply Fin.ext
    match a with
    | ⟨0, _⟩ => show win0_3.index t (0 : Fin 2) * 1 + 1 * 0 = 0; omega
    | ⟨1, _⟩ => show win0_3.index t (1 : Fin 2) * 128 + 1 * cc.val = cc.val; omega
  rw [hidx]
  exact V_v0_at m c cc

/-! ## The output window -/

/-- An index of the result is in point `t`'s block iff each coordinate is in the block's range on its axis. -/
theorem mem_blk4 (t : Fin cfg0.N) (i : S4096x128.Idx) :
    i ∈ ((cfg0.win 4).blk t).view.set
      ↔ ∀ a : Fin 2, win0_4.index t a * S512x128.size a ≤ (i a).val ∧ (i a).val < win0_4.index t a * S512x128.size a + S512x128.size a := by
  show i ∈ ((View.whole main_v2).slice (win0_4.rect t)).set ↔ _
  rw [View.set_slice_whole, Rect.mem_set_unit]
  exact Iff.rfl

/-- Row `R` of the result lies in the block of every point `t` with `t / 3 = R / 512`. -/
theorem mem_blk4_of (t : Fin cfg0.N) (i : S4096x128.Idx) (h : t.val / 3 = (i 0).val / 512) :
    i ∈ ((cfg0.win 4).blk t).view.set := by
  obtain ⟨-, -, -, -, -, -, -, -, e0, e1⟩ := idx_facts t
  rw [mem_blk4]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 128 ≤ (i 1).val ∧ (i 1).val < win0_4.index t (1 : Fin 2) * 128 + 128
    have h1 : (i 1).val < 128 := (i 1).isLt
    omega

/-- Point `t`'s block of a function of the whole result array: rows `512·(t / 3) + r`. -/
theorem read_blk4 (t : Fin cfg0.N) (G : S4096x128.Idx → Elt F .f32) (r : Fin 512) (cc : Fin 128) :
    (((cfg0.win 4).blk t).view.read (Elt F) G : Vec F S512x128 .f32) (ValueIdx.ix2 r cc)
      = G (ValueIdx.ix2 (⟨512 * (t.val / 3) + r.val, by have := t_lt t; omega⟩ : Fin 4096) cc) := by
  have ht := t_lt t
  obtain ⟨-, -, -, -, -, -, -, -, e0, e1⟩ := idx_facts t
  show G (((cfg0.win 4).blk t).view.emb (ValueIdx.ix2 r cc)) = _
  refine congrArg G ?_
  funext a; apply Fin.ext
  match a with
  | ⟨0, _⟩ => show win0_4.index t (0 : Fin 2) * 512 + 1 * r.val = 512 * (t.val / 3) + r.val; omega
  | ⟨1, _⟩ => show win0_4.index t (1 : Fin 2) * 128 + 1 * cc.val = cc.val; omega

end Cert.KernelIdeal.Blocks

end
-- ==== Proof.KIValue.lean ====
/-
  The value of the layer's kernel over the extended reals.

  With X the features, B the three support matrices, W the weight and b the bias, as the program finds them, the
  scratch buffer after the first point holds the three projections  proj s k c = Σ_j X k j · W (128·s + j) c,  and the
  output block's buffer after point t (block row t / 3, support index t % 3) holds, at row r and column c, the partial
  sum of the layer at row R = 512·(t / 3) + r:

    support index 0     contrib 0 R c + b c
    support index 1     (contrib 0 R c + b c) + contrib 1 R c
    support index 2     ((contrib 0 R c + b c) + contrib 1 R c) + contrib 2 R c   =   layer R c

  by induction on the point: a point of support index 0 starts the block, a point of support index s ≠ 0 adds
  contribution s to what the point before left. The block is written back after the points of support index 2, and
  those eight blocks tile the result array, which therefore ends holding the layer.
-/
import proofs.«117343_g7086696039036_cont_9to1c4b_243_11_alg».proof.Proof.KIFrame
import proofs.«117343_g7086696039036_cont_9to1c4b_243_11_alg».proof.Proof.KIPiecesFirst
import proofs.«117343_g7086696039036_cont_9to1c4b_243_11_alg».proof.Proof.KIBlocks

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GraphConv (slabRow proj contrib layer)

variable {F : FTy → Type} [FloatOps F]

local notation "𝕄" => MT nD τ sig Unit (Elt F) ℕ (UR sig nD τ) ℕ

/-! ## The argument arrays, entry by entry, and the result -/

/-- The features as the program finds them. -/
abbrev argX (m : (ℓ : Loc nD τ sig) → Buf (Elt Ideal) ℓ) (c : Dev nD) : Fin 4096 → Fin 128 → EReal :=
  fun k j => m ((c : Thread nD τ).loc main_arg0) (ValueIdx.ix2 k j)
/-- The three support matrices. -/
abbrev argB (m : (ℓ : Loc nD τ sig) → Buf (Elt Ideal) ℓ) (c : Dev nD) : Fin 3 → Fin 4096 → Fin 4096 → EReal :=
  fun s r k => m ((c : Thread nD τ).loc main_arg1) (ValueIdx.ix3 s r k)
/-- The weight. -/
abbrev argW (m : (ℓ : Loc nD τ sig) → Buf (Elt Ideal) ℓ) (c : Dev nD) : Fin 384 → Fin 128 → EReal :=
  fun j cc => m ((c : Thread nD τ).loc main_arg2) (ValueIdx.ix2 j cc)
/-- The bias. -/
abbrev argb (m : (ℓ : Loc nD τ sig) → Buf (Elt Ideal) ℓ) (c : Dev nD) : Fin 128 → EReal :=
  fun cc => m ((c : Thread nD τ).loc main_arg3) (ValueIdx.ix1 cc)

/-- The result array: the layer of the four argument arrays, index by index. -/
abbrev result (m : (ℓ : Loc nD τ sig) → Buf (Elt Ideal) ℓ) (c : Dev nD) : Buf (Elt Ideal) ((c : Thread nD τ).loc main_v2) :=
  fun i : S4096x128.Idx => layer (argX m c) (argB m c) (argW m c) (argb m c) (i 0) (i 1)

/-! ## The partial sums of the layer -/

/-- The layer's sum at row `R` and column `cc` after the contributions of supports `0 … s`. -/
def acc (X : Fin 4096 → Fin 128 → EReal) (B : Fin 3 → Fin 4096 → Fin 4096 → EReal) (W : Fin 384 → Fin 128 → EReal)
    (b : Fin 128 → EReal) (R : Fin 4096) (cc : Fin 128) : ℕ → EReal
  | 0 => contrib X B W 0 R cc + b cc
  | s + 1 => acc X B W b R cc s + contrib X B W ⟨(s + 1) % 3, Nat.mod_lt _ (by decide)⟩ R cc

theorem acc_zero (X : Fin 4096 → Fin 128 → EReal) (B : Fin 3 → Fin 4096 → Fin 4096 → EReal) (W : Fin 384 → Fin 128 → EReal)
    (b : Fin 128 → EReal) (R : Fin 4096) (cc : Fin 128) : acc X B W b R cc 0 = contrib X B W 0 R cc + b cc := rfl

/-- One more support: its contribution is added. -/
theorem acc_succ (X : Fin 4096 → Fin 128 → EReal) (B : Fin 3 → Fin 4096 → Fin 4096 → EReal) (W : Fin 384 → Fin 128 → EReal)
    (b : Fin 128 → EReal) (R : Fin 4096) (cc : Fin 128) (n : ℕ) (s : Fin 3) (hs : s.val = (n + 1) % 3) :
    acc X B W b R cc (n + 1) = acc X B W b R cc n + contrib X B W s R cc := by
  obtain rfl : s = ⟨(n + 1) % 3, Nat.mod_lt _ (by decide)⟩ := Fin.ext hs
  rfl

/-- After the three supports the sum is the layer. -/
theorem layer_eq_acc (X : Fin 4096 → Fin 128 → EReal) (B : Fin 3 → Fin 4096 → Fin 4096 → EReal) (W : Fin 384 → Fin 128 → EReal)
    (b : Fin 128 → EReal) (R : Fin 4096) (cc : Fin 128) : layer X B W b R cc = acc X B W b R cc 2 := by
  rw [acc_succ X B W b R cc 1 (2 : Fin 3) rfl, acc_succ X B W b R cc 0 (1 : Fin 3) rfl, acc_zero]
  rfl

/-! ## The input blocks in terms of the argument arrays -/

variable (m : (ℓ : Loc nD τ sig) → Buf (Elt Ideal) ℓ) (ρ : Dev nD → PrngReg)

/-- Row `512·(t / 3) + r` is a row of the array. -/
theorem row_lt (t : Fin cfg0.N) (r : Fin 512) : 512 * (t.val / 3) + r.val < 4096 := by
  have ht := Blocks.t_lt t
  have hr := r.isLt
  omega

/-- The block of support rows at point `t`: rows of support `s = t % 3` from row `512·(t / 3)` on. -/
theorem iblk0_arg (c : Dev nD) (t : Fin cfg0.N) (r : Fin 512) (k : Fin 4096) (s : Fin 3) (R : Fin 4096)
    (hs : s.val = t.val % 3) (hR : R.val = 512 * (t.val / 3) + r.val) :
    (iblk m c 0 t : Vec Ideal S512x4096 .f32) (ValueIdx.ix2 r k) = argB m c s R k := by
  have es : s = (⟨t.val % 3, Nat.mod_lt _ (by decide)⟩ : Fin 3) := Fin.ext hs
  have eR : R = (⟨512 * (t.val / 3) + r.val, row_lt t r⟩ : Fin 4096) := Fin.ext hR
  rw [es, eR]
  exact Blocks.iblk0_at m c t r k

/-! ## The body's sums, over variables -/

/-- A projection: features times a slab of the weight. -/
theorem proj_of (x1 : Vec Ideal S4096x128 .f32) (x2 : Vec Ideal S384x128 .f32) (X : Fin 4096 → Fin 128 → EReal)
    (W : Fin 384 → Fin 128 → EReal) (h1 : ∀ k j, x1 (ValueIdx.ix2 k j) = X k j) (h2 : ∀ j cc, x2 (ValueIdx.ix2 j cc) = W j cc)
    (s : Fin 3) (k : Fin 4096) (cc : Fin 128) :
    ∑ j : Fin 128, x1 (ValueIdx.ix2 k j) * x2 (ValueIdx.ix2 (slabRow s j) cc) = proj X W s k cc := by
  unfold proj
  exact Finset.sum_congr rfl fun j _ => by rw [h1, h2]

/-- A contribution: a block of support rows times the projection of its support. -/
theorem contrib_of (x0 : Vec Ideal S512x4096 .f32) (xs : Vec Ideal S3x4096x128 .bf16) (X : Fin 4096 → Fin 128 → EReal)
    (B : Fin 3 → Fin 4096 → Fin 4096 → EReal) (W : Fin 384 → Fin 128 → EReal) (s : Fin 3) (R : Fin 4096) (r : Fin 512) (cc : Fin 128)
    (h0 : ∀ k, x0 (ValueIdx.ix2 r k) = B s R k) (hp : ∀ k, xs (ValueIdx.ix3 s k cc) = proj X W s k cc) :
    ∑ k : Fin 4096, x0 (ValueIdx.ix2 r k) * xs (ValueIdx.ix3 s k cc) = contrib X B W s R cc := by
  unfold contrib
  exact Finset.sum_congr rfl fun k _ => by rw [h0, hp]

/-- The first point's block: contribution 0, its projection worked out on the spot, plus the bias. -/
theorem first_of (x0 : Vec Ideal S512x4096 .f32) (x1 : Vec Ideal S4096x128 .f32) (x2 : Vec Ideal S384x128 .f32)
    (x3 : Vec Ideal S1x128 .f32) (X : Fin 4096 → Fin 128 → EReal) (B : Fin 3 → Fin 4096 → Fin 4096 → EReal)
    (W : Fin 384 → Fin 128 → EReal) (b : Fin 128 → EReal) (R : Fin 4096) (r : Fin 512) (cc : Fin 128)
    (h0 : ∀ k, x0 (ValueIdx.ix2 r k) = B (0 : Fin 3) R k) (h1 : ∀ k j, x1 (ValueIdx.ix2 k j) = X k j)
    (h2 : ∀ j cc, x2 (ValueIdx.ix2 j cc) = W j cc) (h3 : x3 (ValueIdx.ix2 (0 : Fin 1) cc) = b cc) :
    (∑ k : Fin 4096, x0 (ValueIdx.ix2 r k) * (∑ j : Fin 128, x1 (ValueIdx.ix2 k j) * x2 (ValueIdx.ix2 (slabRow (0 : Fin 3) j) cc)))
        + x3 (ValueIdx.ix2 (0 : Fin 1) cc)
      = contrib X B W (0 : Fin 3) R cc + b cc := by
  unfold contrib
  rw [h3]
  refine congrArg (fun a : EReal => a + b cc) ?_
  exact Finset.sum_congr rfl fun k _ => by rw [h0, proj_of x1 x2 X W h1 h2]

/-- A later point of support index 0: contribution 0 from the kept projection, plus the bias. -/
theorem start_of (x0 : Vec Ideal S512x4096 .f32) (x3 : Vec Ideal S1x128 .f32) (xs : Vec Ideal S3x4096x128 .bf16)
    (X : Fin 4096 → Fin 128 → EReal) (B : Fin 3 → Fin 4096 → Fin 4096 → EReal) (W : Fin 384 → Fin 128 → EReal)
    (b : Fin 128 → EReal) (R : Fin 4096) (r : Fin 512) (cc : Fin 128)
    (h0 : ∀ k, x0 (ValueIdx.ix2 r k) = B (0 : Fin 3) R k) (hp : ∀ k, xs (ValueIdx.ix3 (0 : Fin 3) k cc) = proj X W (0 : Fin 3) k cc)
    (h3 : x3 (ValueIdx.ix2 (0 : Fin 1) cc) = b cc) :
    (∑ k : Fin 4096, x0 (ValueIdx.ix2 r k) * xs (ValueIdx.ix3 (0 : Fin 3) k cc)) + x3 (ValueIdx.ix2 (0 : Fin 1) cc)
      = contrib X B W (0 : Fin 3) R cc + b cc := by
  rw [h3, contrib_of x0 xs X B W (0 : Fin 3) R r cc h0 hp]

/-- A point of support index `s ≠ 0`: contribution `s` added to what was there. -/
theorem add_of (x0 : Vec Ideal S512x4096 .f32) (xo : Vec Ideal S512x128 .f32) (xs : Vec Ideal S3x4096x128 .bf16)
    (X : Fin 4096 → Fin 128 → EReal) (B : Fin 3 → Fin 4096 → Fin 4096 → EReal) (W : Fin 384 → Fin 128 → EReal)
    (s : Fin 3) (R : Fin 4096) (r : Fin 512) (cc : Fin 128) (a : EReal)
    (ho : xo (ValueIdx.ix2 r cc) = a) (h0 : ∀ k, x0 (ValueIdx.ix2 r k) = B s R k)
    (hp : ∀ k, xs (ValueIdx.ix3 s k cc) = proj X W s k cc) :
    xo (ValueIdx.ix2 r cc) + ∑ k : Fin 4096, x0 (ValueIdx.ix2 r k) * xs (ValueIdx.ix3 s k cc)
      = a + contrib X B W s R cc := by
  rw [ho, contrib_of x0 xs X B W s R r cc h0 hp]

/-! ## The kept projections -/

/-- What the first point leaves in the scratch buffer: the three projections. -/
theorem kept_at (c : Dev nD) (s : Fin 3) (k : Fin 4096) (cc : Fin 128) :
    (kept m c : Vec Ideal S3x4096x128 .bf16) (ValueIdx.ix3 s k cc) = proj (argX m c) (argW m c) s k cc := by
  unfold kept
  exact (scrFirst_at c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0) s k cc).trans
    (proj_of (iblk m c 1 t0) (iblk m c 2 t0) (argX m c) (argW m c) (Blocks.iblk1_at m c t0) (Blocks.iblk2_at m c t0) s k cc)

/-- The slab of the scratch the body reads at point `t` is the one of its support index. -/
theorem off_at (t : Fin cfg0.N) (s : Fin 3) (hs : s.val = t.val % 3) : k0_off1 (grid0.coords t) = ![s.val, 0, 0] := by
  rw [off_eq t, hs]

/-! ## The output block after each point -/

/-- THE RUNNING VALUE: after point `n` the output block holds, at row `r`, the layer's partial sum over the supports
    `0 … n % 3` at row `512·(n / 3) + r`. -/
theorem outAt_at (c : Dev nD) : ∀ (n : ℕ) (h : n < cfg0.N) (r : Fin 512) (cc : Fin 128) (R : Fin 4096),
    R.val = 512 * (n / 3) + r.val →
    (outAt m c n h : Vec Ideal S512x128 .f32) (ValueIdx.ix2 r cc)
      = acc (argX m c) (argB m c) (argW m c) (argb m c) R cc (n % 3) := by
  intro n
  induction n with
  | zero =>
    intro h r cc R hR
    have e : outAt m c 0 h = _ := outAt_first m c t0 rfl
    rw [e]
    refine (outFirst_at c (grid0.coords t0) (ms0 t0) (hs0 t0) (ms1 t0) (hs1 t0) (ms2 t0) (hs2 t0) (ms3 t0) (hs3 t0) (ms4 t0) (hs4 t0) scM (Memref.isWhole_whole _) first_h1 first_h2 first_h3 (iblk m c 0 t0) (iblk m c 1 t0) (iblk m c 2 t0) (iblk m c 3 t0) (off_at t0 (0 : Fin 3) rfl) r cc).trans ?_
    show _ = contrib (argX m c) (argB m c) (argW m c) (0 : Fin 3) R cc + argb m c cc
    exact first_of (iblk m c 0 t0) (iblk m c 1 t0) (iblk m c 2 t0) (iblk m c 3 t0) (argX m c) (argB m c) (argW m c) (argb m c) R r cc
      (fun k => iblk0_arg m c t0 r k (0 : Fin 3) R rfl hR) (Blocks.iblk1_at m c t0) (Blocks.iblk2_at m c t0) (Blocks.iblk3_at m c t0 cc)
  | succ n ih =>
    intro h r cc R hR
    have hN : n + 1 < 24 := lt_of_lt_of_eq h (show cfg0.N = 24 from N_0)
    by_cases h0 : (n + 1) % 3 = 0
    · have e : outAt m c (n + 1) h = _ := outAt_start m c ⟨n + 1, h⟩ (Nat.succ_ne_zero n) h0
      rw [e]
      refine (outStart_at _ _ _ _ _ _ _ _ _ _ _ _ _ _ _ _ _ _ _ _ _ _ (0 : Fin 3) (off_at ⟨n + 1, h⟩ (0 : Fin 3) h0.symm) r cc).trans ?_
      have ea : acc (argX m c) (argB m c) (argW m c) (argb m c) R cc ((n + 1) % 3)
          = contrib (argX m c) (argB m c) (argW m c) (0 : Fin 3) R cc + argb m c cc := by rw [h0]; rfl
      rw [ea]
      exact start_of (iblk m c 0 ⟨n + 1, h⟩) (iblk m c 3 ⟨n + 1, h⟩) (kept m c) (argX m c) (argB m c) (argW m c) (argb m c) R r cc
        (fun k => iblk0_arg m c ⟨n + 1, h⟩ r k (0 : Fin 3) R h0.symm hR) (fun k => kept_at m c (0 : Fin 3) k cc)
        (Blocks.iblk3_at m c ⟨n + 1, h⟩ cc)
    · have e : outAt m c (n + 1) h = _ := outAt_add m c ⟨n + 1, h⟩ (Nat.succ_ne_zero n) h0
      rw [e]
      obtain ⟨s, hs⟩ : ∃ s : Fin 3, s.val = (n + 1) % 3 := ⟨⟨(n + 1) % 3, Nat.mod_lt _ (by decide)⟩, rfl⟩
      refine (outAdd_at _ _ _ _ _ _ _ _ _ _ _ _ _ _ _ _ _ _ _ _ _ _ _ s (off_at ⟨n + 1, h⟩ s hs) r cc).trans ?_
      have e1 : (n + 1) % 3 = n % 3 + 1 := by omega
      have ea : acc (argX m c) (argB m c) (argW m c) (argb m c) R cc ((n + 1) % 3)
          = acc (argX m c) (argB m c) (argW m c) (argb m c) R cc (n % 3)
            + contrib (argX m c) (argB m c) (argW m c) s R cc := by
        rw [e1]; exact acc_succ _ _ _ _ R cc (n % 3) s (by omega)
      rw [ea]
      exact add_of (iblk m c 0 ⟨n + 1, h⟩) (outAt m c n (Nat.lt_of_succ_lt h)) (kept m c) (argX m c) (argB m c) (argW m c) s R r cc _
        (ih (Nat.lt_of_succ_lt h) r cc R (by omega)) (fun k => iblk0_arg m c ⟨n + 1, h⟩ r k s R hs hR) (fun k => kept_at m c s k cc)
/-! ## From the blocks to the array -/

/-- What a point of support index 2 writes back is its block of the result. -/
theorem flushed_eq (c : Dev nD) (t : Fin cfg0.N) (hf : (cfg0.win 4).flush t = true) :
    (dats m 0 c).flushed 4 t = ((cfg0.win 4).blk t).view.read (Elt Ideal) (result m c) := by
  have ht := Blocks.t_lt t
  have h2 : t.val % 3 = 2 := (flush0_4 t).mp hf
  show (cfg0.win 4).cut (grid0.coords t) ((dats m 0 c).after 4 t) = _
  rw [after4]
  funext y
  obtain ⟨r, cc, rfl⟩ : ∃ (r : Fin 512) (cc : Fin 128), y = ValueIdx.ix2 r cc := ⟨y 0, y 1, ValueIdx.eq_ix2 y⟩
  have hx : (cfg0.win 4).xinj (grid0.coords t) (ValueIdx.ix2 r cc) = (ValueIdx.ix2 r cc : S512x128.Idx) :=
    funext fun a => Fin.ext (by match a with | ⟨0, _⟩ => rfl | ⟨1, _⟩ => rfl)
  show outAt m c t.val t.isLt ((cfg0.win 4).xinj (grid0.coords t) (ValueIdx.ix2 r cc)) = _
  rw [hx]
  refine (outAt_at m c t.val t.isLt r cc ⟨512 * (t.val / 3) + r.val, by omega⟩ rfl).trans ?_
  rw [h2, ← layer_eq_acc]
  exact (Blocks.read_blk4 t (result m c) r cc).symm

/-- The eight written-back blocks tile the result array, which ends holding the layer. -/
theorem final (c : Dev nD) : (dats m 0 c).arrAt 4 cfg0.N = result m c :=
  (dats m 0 c).arrAt_eq_of_cover 4 (result m c) (flushed_eq m c) fun (i : S4096x128.Idx) =>
    have hi : (i 0).val < 4096 := (i 0).isLt
    ⟨⟨3 * ((i 0).val / 512) + 2, by rw [show cfg0.N = 24 from N_0]; omega⟩,
      (flush0_4 _).mpr (by show (3 * ((i 0).val / 512) + 2) % 3 = 2; omega),
      Blocks.mem_blk4_of _ i (by show (3 * ((i 0).val / 512) + 2) / 3 = (i 0).val / 512; omega)⟩

/-! ## The run, read -/

/-- THE VALUE: every weakly fair execution of the program terminates, nothing faulting, with the result array at the
    layer of the four argument arrays and those arrays as it found them. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Body

end
-- ==== Proof.SpecLaw.lean ====
/-
  The reference's arrangement of the graph-convolution layer, and the law that it is the layer of the specification.

  The reference first applies each support matrix to the features, lays the three results side by side as one
  4096 × 384 array (column `128·s + j` of it is column `j` of `B s · X`), multiplies that by the whole 384-row weight and
  adds the bias:

    refLayer r c = (Σ_{j < 384} (Σ_k B (j / 128) r k · X k (j % 128)) · W j c) + b c

  The specification projects the features through each 128-row slab of the weight first and applies the support
  matrices afterwards. Over the reals the two agree: split the sum over the 384 columns into three blocks of 128
  (`j = 128·s + j'`), distribute the products over the inner sums, exchange the two summations, and regroup the
  four summands. The extended reals do not distribute, so the law is stated for arrays all of whose entries are real.
-/
import proofs.«117343_g7086696039036_cont_9to1c4b_243_11_alg».proof.Proof.Spec
import Mathlib.Data.EReal.Operations
import Mathlib.Algebra.BigOperators.Fin
import Mathlib.Algebra.BigOperators.Ring.Finset
import Mathlib.Tactic.Ring

noncomputable section

namespace Cert.GraphConv

open scoped BigOperators

/-- The slab that row `j` of the 384-row weight lies in. -/
def slabOf (j : Fin 384) : Fin 3 := ⟨j.val / 128, by omega⟩

/-- The row within its slab of row `j` of the 384-row weight. -/
def laneOf (j : Fin 384) : Fin 128 := ⟨j.val % 128, by omega⟩

theorem slabOf_slabRow (s : Fin 3) (j : Fin 128) : slabOf (slabRow s j) = s :=
  Fin.ext (by show (128 * s.val + j.val) / 128 = s.val; omega)

theorem laneOf_slabRow (s : Fin 3) (j : Fin 128) : laneOf (slabRow s j) = j :=
  Fin.ext (by show (128 * s.val + j.val) % 128 = j.val; omega)

theorem slabRow_slabOf_laneOf (j : Fin 384) : slabRow (slabOf j) (laneOf j) = j :=
  Fin.ext (by show 128 * (j.val / 128) + j.val % 128 = j.val; omega)

/-- The layer as the reference computes it: the three products `B s · X` side by side, times the whole weight, plus
    the bias. -/
def refLayer (X : Fin 4096 → Fin 128 → EReal) (B : Fin 3 → Fin 4096 → Fin 4096 → EReal) (W : Fin 384 → Fin 128 → EReal)
    (b : Fin 128 → EReal) (r : Fin 4096) (c : Fin 128) : EReal :=
  (∑ j : Fin 384, (∑ k : Fin 4096, B (slabOf j) r k * X k (laneOf j)) * W j c) + b c

/-- The 384 rows of the weight are the 128 rows of each of its three slabs. -/
def slabEquiv : Fin 3 × Fin 128 ≃ Fin 384 where
  toFun p := slabRow p.1 p.2
  invFun j := (slabOf j, laneOf j)
  left_inv p := Prod.ext (slabOf_slabRow p.1 p.2) (laneOf_slabRow p.1 p.2)
  right_inv j := slabRow_slabOf_laneOf j

/-- A sum over the 384 rows, slab by slab. -/
theorem sum_slabs {M : Type} [AddCommMonoid M] (f : Fin 384 → M) :
    ∑ j : Fin 384, f j = ∑ s : Fin 3, ∑ j : Fin 128, f (slabRow s j) := by
  rw [← Fintype.sum_prod_type' (f := fun s j => f (slabRow s j))]
  exact (Fintype.sum_equiv slabEquiv (fun p => f (slabRow p.1 p.2)) f (fun _ => rfl)).symm

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- The law over the reals: one slab's part of the reference's sum is that slab's contribution. -/
theorem slab_real (X : Fin 4096 → Fin 128 → ℝ) (Bs : Fin 4096 → ℝ) (Ws : Fin 128 → ℝ) :
    ∑ j : Fin 128, (∑ k : Fin 4096, Bs k * X k j) * Ws j = ∑ k : Fin 4096, Bs k * ∑ j : Fin 128, X k j * Ws j := by
  simp only [Finset.sum_mul, Finset.mul_sum]
  rw [Finset.sum_comm]
  exact Finset.sum_congr rfl fun k _ => Finset.sum_congr rfl fun j _ => mul_assoc _ _ _

/-- The law over the reals. -/
theorem refLayer_real (X : Fin 4096 → Fin 128 → ℝ) (B : Fin 3 → Fin 4096 → Fin 4096 → ℝ) (W : Fin 384 → Fin 128 → ℝ)
    (b : Fin 128 → ℝ) (r : Fin 4096) (c : Fin 128) :
    (∑ j : Fin 384, (∑ k : Fin 4096, B (slabOf j) r k * X k (laneOf j)) * W j c) + b c
      = (((∑ k : Fin 4096, B 0 r k * ∑ j : Fin 128, X k j * W (slabRow 0 j) c) + b c)
          + ∑ k : Fin 4096, B 1 r k * ∑ j : Fin 128, X k j * W (slabRow 1 j) c)
          + ∑ k : Fin 4096, B 2 r k * ∑ j : Fin 128, X k j * W (slabRow 2 j) c := by
  rw [sum_slabs, Fin.sum_univ_three]
  simp only [slabOf_slabRow, laneOf_slabRow]
  rw [slab_real X (B 0 r) (fun j => W (slabRow 0 j) c), slab_real X (B 1 r) (fun j => W (slabRow 1 j) c),
    slab_real X (B 2 r) (fun j => W (slabRow 2 j) c)]
  ring

/-- **The reference's arrangement is the specification's layer**, for arrays all of whose entries are real. -/
theorem refLayer_eq_layer (X : Fin 4096 → Fin 128 → EReal) (B : Fin 3 → Fin 4096 → Fin 4096 → EReal)
    (W : Fin 384 → Fin 128 → EReal) (b : Fin 128 → EReal)
    (hX : ∀ k j, ∃ x : ℝ, X k j = (x : EReal)) (hB : ∀ s r k, ∃ x : ℝ, B s r k = (x : EReal))
    (hW : ∀ j c, ∃ x : ℝ, W j c = (x : EReal)) (hb : ∀ c, ∃ x : ℝ, b c = (x : EReal)) (r : Fin 4096) (c : Fin 128) :
    refLayer X B W b r c = layer X B W b r c := by
  choose X' hX' using hX
  choose B' hB' using hB
  choose W' hW' using hW
  choose b' hb' using hb
  obtain rfl : X = fun k j => (X' k j : EReal) := funext fun k => funext fun j => hX' k j
  obtain rfl : B = fun s r k => (B' s r k : EReal) := funext fun s => funext fun r => funext fun k => hB' s r k
  obtain rfl : W = fun j c => (W' j c : EReal) := funext fun j => funext fun c => hW' j c
  obtain rfl : b = fun c => (b' c : EReal) := funext fun c => hb' c
  unfold refLayer layer contrib proj
  simp only [← EReal.coe_mul, ← coe_sum, ← EReal.coe_add]
  exact congrArg _ (refLayer_real X' B' W' b' r c)

end Cert.GraphConv

end
-- ==== Proof.RefValue.lean ====
/-
  The reference's result, read at an index, is `refLayer` of its four argument arrays.

  The reference slices each support matrix `B s` out of the 3 × 4096 × 4096 array, multiplies it by the features,
  lays the three 4096 × 128 products side by side (column `j` of the 4096 × 384 array is column `j % 128` of product
  `j / 128`), multiplies by the 384 × 128 weight and adds the bias row to every row. Each step is read at an index;
  what remains is index arithmetic: row `r`, column `k` of the reshaped slice `s` is entry `(s, r, k)` of the array.
-/
import proofs.«117343_g7086696039036_cont_9to1c4b_243_11_alg».proof.Proof.Gen.ReferenceIdeal.Read
import proofs.«117343_g7086696039036_cont_9to1c4b_243_11_alg».proof.Proof.SpecLaw

noncomputable section

namespace Cert.ReferenceIdeal.RefValue

open Cert.ReferenceIdeal Cert.ReferenceIdeal.Gen Cert.ReferenceIdeal.Read Idealize.ShloMosaic Cert.GraphConv
open scoped BigOperators

/-- Product 0, `B 0 · X`, at row `r` and column `l`. -/
theorem val_main_v2_at (x0 : (⟨S4096x128, .f32⟩ : BufTy).Contents (Elt Ideal))
    (x1 : (⟨S3x4096x4096, .f32⟩ : BufTy).Contents (Elt Ideal)) (r : Fin 4096) (l : Fin 128) :
    val_main_v2 (F := Ideal) x0 x1 (ValueIdx.ix2 r l)
      = ∑ k : Fin 4096, x1 (ValueIdx.ix3 (0 : Fin 3) r k) * x0 (ValueIdx.ix2 k l) := by
  rw [val_main_v2_apply]
  refine Finset.sum_congr rfl fun k _ => ?_
  rw [val_main_v1_apply, val_main_v0_apply]
  have e1 : idx_main_v0 (idx_main_v1 (lidx_main_v2 (ValueIdx.ix2 r l) k)) = ValueIdx.ix3 (0 : Fin 3) r k :=
    funext fun a => Fin.ext (by
      have hr := r.isLt; have hk := k.isLt
      match a with
      | ⟨0, _⟩ => rfl
      | ⟨1, _⟩ => show (r.val * 4096 + k.val) / 4096 % 4096 = r.val; omega
      | ⟨2, _⟩ => show (r.val * 4096 + k.val) % 4096 = k.val; omega)
  have e2 : ridx_main_v2 (ValueIdx.ix2 r l) k = ValueIdx.ix2 k l :=
    funext fun a => Fin.ext (by match a with | ⟨0, _⟩ => rfl | ⟨1, _⟩ => rfl)
  rw [e1, e2]

/-- Product 1, `B 1 · X`, at row `r` and column `l`. -/
theorem val_main_v5_at (x0 : (⟨S4096x128, .f32⟩ : BufTy).Contents (Elt Ideal))
    (x1 : (⟨S3x4096x4096, .f32⟩ : BufTy).Contents (Elt Ideal)) (r : Fin 4096) (l : Fin 128) :
    val_main_v5 (F := Ideal) x0 x1 (ValueIdx.ix2 r l)
      = ∑ k : Fin 4096, x1 (ValueIdx.ix3 (1 : Fin 3) r k) * x0 (ValueIdx.ix2 k l) := by
  rw [val_main_v5_apply]
  refine Finset.sum_congr rfl fun k _ => ?_
  rw [val_main_v4_apply, val_main_v3_apply]
  have e1 : idx_main_v3 (idx_main_v4 (lidx_main_v5 (ValueIdx.ix2 r l) k)) = ValueIdx.ix3 (1 : Fin 3) r k :=
    funext fun a => Fin.ext (by
      have hr := r.isLt; have hk := k.isLt
      match a with
      | ⟨0, _⟩ => rfl
      | ⟨1, _⟩ => show (r.val * 4096 + k.val) / 4096 % 4096 = r.val; omega
      | ⟨2, _⟩ => show (r.val * 4096 + k.val) % 4096 = k.val; omega)
  have e2 : ridx_main_v5 (ValueIdx.ix2 r l) k = ValueIdx.ix2 k l :=
    funext fun a => Fin.ext (by match a with | ⟨0, _⟩ => rfl | ⟨1, _⟩ => rfl)
  rw [e1, e2]

/-- Product 2, `B 2 · X`, at row `r` and column `l`. -/
theorem val_main_v8_at (x0 : (⟨S4096x128, .f32⟩ : BufTy).Contents (Elt Ideal))
    (x1 : (⟨S3x4096x4096, .f32⟩ : BufTy).Contents (Elt Ideal)) (r : Fin 4096) (l : Fin 128) :
    val_main_v8 (F := Ideal) x0 x1 (ValueIdx.ix2 r l)
      = ∑ k : Fin 4096, x1 (ValueIdx.ix3 (2 : Fin 3) r k) * x0 (ValueIdx.ix2 k l) := by
  rw [val_main_v8_apply]
  refine Finset.sum_congr rfl fun k _ => ?_
  rw [val_main_v7_apply, val_main_v6_apply]
  have e1 : idx_main_v6 (idx_main_v7 (lidx_main_v8 (ValueIdx.ix2 r l) k)) = ValueIdx.ix3 (2 : Fin 3) r k :=
    funext fun a => Fin.ext (by
      have hr := r.isLt; have hk := k.isLt
      match a with
      | ⟨0, _⟩ => rfl
      | ⟨1, _⟩ => show (r.val * 4096 + k.val) / 4096 % 4096 = r.val; omega
      | ⟨2, _⟩ => show (r.val * 4096 + k.val) % 4096 = k.val; omega)
  have e2 : ridx_main_v8 (ValueIdx.ix2 r l) k = ValueIdx.ix2 k l :=
    funext fun a => Fin.ext (by match a with | ⟨0, _⟩ => rfl | ⟨1, _⟩ => rfl)
  rw [e1, e2]

/-- Off the joined axis a piece's index has the coordinates of the whole array's index. -/
theorem off_axis (r : Fin 4096) (j : Fin 384) (l : Fin 128) (hr : S4096x128.rank = S4096x384.rank) :
    ∀ b : Fin S4096x128.rank, b.cast hr ≠ (1 : Fin S4096x384.rank) →
      ((ValueIdx.ix2 r l : S4096x128.Idx) b).val = ((ValueIdx.ix2 r j : S4096x384.Idx) (b.cast hr)).val := fun b hb => by
  match b with
  | ⟨0, _⟩ => rfl
  | ⟨1, _⟩ => exact absurd rfl hb

/-- The three products side by side, at row `r` and column `j`: product `j / 128` at column `j % 128`. -/
theorem val_main_v9_at (x0 : (⟨S4096x128, .f32⟩ : BufTy).Contents (Elt Ideal))
    (x1 : (⟨S3x4096x4096, .f32⟩ : BufTy).Contents (Elt Ideal)) (r : Fin 4096) (j : Fin 384) :
    val_main_v9 (F := Ideal) x0 x1 (ValueIdx.ix2 r j)
      = ∑ k : Fin 4096, x1 (ValueIdx.ix3 (slabOf j) r k) * x0 (ValueIdx.ix2 k (laneOf j)) := by
  have hj := j.isLt
  unfold val_main_v9
  rcases Nat.lt_or_ge j.val 128 with h0 | h0
  · have hs : slabOf j = (0 : Fin 3) := Fin.ext (by show j.val / 128 = 0; omega)
    rw [hs, ← val_main_v2_at]
    exact concatenate_apply_piece (t := S4096x384) 1
      [⟨S4096x128, val_main_v2 (F := Ideal) x0 x1⟩, ⟨S4096x128, val_main_v5 (F := Ideal) x0 x1⟩, ⟨S4096x128, val_main_v8 (F := Ideal) x0 x1⟩]
      concatenates_S4096x128_S4096x128_S4096x128_S4096x384_d1 (ValueIdx.ix2 r j) 0 (by show (0 : Nat) < 3; omega)
      S4096x128 (val_main_v2 (F := Ideal) x0 x1) rfl rfl 0 rfl (ValueIdx.ix2 r (laneOf j)) (off_axis r j (laneOf j) rfl)
      (by show 0 + j.val % 128 = j.val; omega)
  · rcases Nat.lt_or_ge j.val 256 with h1 | h1
    · have hs : slabOf j = (1 : Fin 3) := Fin.ext (by show j.val / 128 = 1; omega)
      rw [hs, ← val_main_v5_at]
      exact concatenate_apply_piece (t := S4096x384) 1
        [⟨S4096x128, val_main_v2 (F := Ideal) x0 x1⟩, ⟨S4096x128, val_main_v5 (F := Ideal) x0 x1⟩, ⟨S4096x128, val_main_v8 (F := Ideal) x0 x1⟩]
        concatenates_S4096x128_S4096x128_S4096x128_S4096x384_d1 (ValueIdx.ix2 r j) 1 (by show (1 : Nat) < 3; omega)
        S4096x128 (val_main_v5 (F := Ideal) x0 x1) rfl rfl 128 rfl (ValueIdx.ix2 r (laneOf j)) (off_axis r j (laneOf j) rfl)
        (by show 128 + j.val % 128 = j.val; omega)
    · have hs : slabOf j = (2 : Fin 3) := Fin.ext (by show j.val / 128 = 2; omega)
      rw [hs, ← val_main_v8_at]
      exact concatenate_apply_piece (t := S4096x384) 1
        [⟨S4096x128, val_main_v2 (F := Ideal) x0 x1⟩, ⟨S4096x128, val_main_v5 (F := Ideal) x0 x1⟩, ⟨S4096x128, val_main_v8 (F := Ideal) x0 x1⟩]
        concatenates_S4096x128_S4096x128_S4096x128_S4096x384_d1 (ValueIdx.ix2 r j) 2 (by show (2 : Nat) < 3; omega)
        S4096x128 (val_main_v8 (F := Ideal) x0 x1) rfl rfl 256 rfl (ValueIdx.ix2 r (laneOf j)) (off_axis r j (laneOf j) rfl)
        (by show 256 + j.val % 128 = j.val; omega)

/-- **The reference's result at row `r` and column `c` is `refLayer` of the argument arrays.** -/
theorem val_main_v13_at (x0 : (⟨S4096x128, .f32⟩ : BufTy).Contents (Elt Ideal))
    (x1 : (⟨S3x4096x4096, .f32⟩ : BufTy).Contents (Elt Ideal)) (x2 : (⟨S384x128, .f32⟩ : BufTy).Contents (Elt Ideal))
    (x3 : (⟨S128, .f32⟩ : BufTy).Contents (Elt Ideal)) (r : Fin 4096) (c : Fin 128) :
    val_main_v13 (F := Ideal) x0 x1 x2 x3 (ValueIdx.ix2 r c)
      = refLayer (fun k j => x0 (ValueIdx.ix2 k j)) (fun s r k => x1 (ValueIdx.ix3 s r k)) (fun j c => x2 (ValueIdx.ix2 j c))
          (fun c => x3 (ValueIdx.ix1 c)) r c := by
  rw [val_main_v13_apply, val_main_v10_apply, val_main_v12_apply, val_main_v11_apply]
  have e1 : ∀ k : Fin 384, lidx_main_v10 (ValueIdx.ix2 r c) k = ValueIdx.ix2 r k := fun k =>
    funext fun a => Fin.ext (by match a with | ⟨0, _⟩ => rfl | ⟨1, _⟩ => rfl)
  have e2 : ∀ k : Fin 384, ridx_main_v10 (ValueIdx.ix2 r c) k = ValueIdx.ix2 k c := fun k =>
    funext fun a => Fin.ext (by match a with | ⟨0, _⟩ => rfl | ⟨1, _⟩ => rfl)
  have e3 : idx_main_v11 (idx_main_v12 (ValueIdx.ix2 r c)) = ValueIdx.ix1 c :=
    funext fun a => Fin.ext (by match a with | ⟨0, _⟩ => rfl)
  simp only [e1, e2, e3, val_main_v9_at, Ideal.addf_def]
  rfl

/-- **The reference's result at row `r` and column `c` is the specification's layer**, when every entry of the four
    argument arrays is a real number. -/
theorem val_main_v13_layer (x0 : (⟨S4096x128, .f32⟩ : BufTy).Contents (Elt Ideal))
    (x1 : (⟨S3x4096x4096, .f32⟩ : BufTy).Contents (Elt Ideal)) (x2 : (⟨S384x128, .f32⟩ : BufTy).Contents (Elt Ideal))
    (x3 : (⟨S128, .f32⟩ : BufTy).Contents (Elt Ideal))
    (h0 : ∀ i, ∃ x : ℝ, x0 i = (x : EReal)) (h1 : ∀ i, ∃ x : ℝ, x1 i = (x : EReal))
    (h2 : ∀ i, ∃ x : ℝ, x2 i = (x : EReal)) (h3 : ∀ i, ∃ x : ℝ, x3 i = (x : EReal)) (r : Fin 4096) (c : Fin 128) :
    val_main_v13 (F := Ideal) x0 x1 x2 x3 (ValueIdx.ix2 r c)
      = layer (fun k j => x0 (ValueIdx.ix2 k j)) (fun s r k => x1 (ValueIdx.ix3 s r k)) (fun j c => x2 (ValueIdx.ix2 j c))
          (fun c => x3 (ValueIdx.ix1 c)) r c := by
  rw [val_main_v13_at]
  exact refLayer_eq_layer _ _ _ _ (fun k j => h0 _) (fun s r k => h1 _) (fun j c => h2 _) (fun c => h3 _) r c

end Cert.ReferenceIdeal.RefValue

end
-- ==== Proof.Finite.lean ====
/-
  From the printed precondition to the realness of every entry.

  The precondition says of each of the four argument arrays that every entry `x` has `|x| < +∞` (a comparison of
  `max x (-x)` with the word of `+∞`, reduced by `and` over the whole array), and joins the four answers by `and`.
  Over the extended reals `max x (-x) < ⊤` rules out both `⊤` and `⊥` (whose negation is `⊤`), so every entry is the
  coercion of a real number.
-/
import proofs.«117343_g7086696039036_cont_9to1c4b_243_11_alg».proof.Pre_finite_inputs
import proofs.«117343_g7086696039036_cont_9to1c4b_243_11_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs

/-- The rank-0 shape has one index. -/
instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- **Under the precondition every entry of every argument array is a real number.** -/
theorem finite_of_pre [Cert.Pre_finite_inputs.Facts] (a0 : FVec Ideal S4096x128 .f32) (a1 : FVec Ideal S3x4096x4096 .f32)
    (a2 : FVec Ideal S384x128 .f32) (a3 : FVec Ideal S128 .f32)
    (h : Cert.Pre_finite_inputs.fn (F := Ideal) a0 a1 a2 a3 = (fun _ => 1#1)) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) := by
  have h0 := congrFun h ValueIdx.ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt_inf (a0 i) (Host.reduce_andi_all _ _ _ _ _ e0 i),
    fun i => real_of_abs_lt_inf (a1 i) (Host.reduce_andi_all _ _ _ _ _ e1 i),
    fun i => real_of_abs_lt_inf (a2 i) (Host.reduce_andi_all _ _ _ _ _ e2 i),
    fun i => real_of_abs_lt_inf (a3 i) (Host.reduce_andi_all _ _ _ _ _ e3 i)⟩

end Cert.Pre_finite_inputs.Finite

end
-- ==== Proof.lean ====
/-
  The certificate of the graph-convolution layer: the tiled kernel against the plain reference.

  Both programs compute, for features X (4096 × 128), three support matrices B₀, B₁, B₂ (4096 × 4096), a weight W
  (384 × 128, three slabs W₀, W₁, W₂ of 128 rows) and a bias row b, the array  Σ_s B_s · X · W_s + b.
  The reference forms the three products B_s · X, lays them side by side into a 4096 × 384 array, multiplies by W and
  adds b. The kernel first projects the features, P_s = X · W_s, keeps the three projections, and then, block of 512
  rows by block, adds up ((B₀-block · P₀ + b) + B₁-block · P₁) + B₂-block · P₂.

  Over the extended reals the two agree where every entry of the four arguments is a real number: then
  (B_s · X) · W_s = B_s · (X · W_s) is the associativity of the matrix product — distributivity and the exchange of two
  finite sums, which hold for real summands — and the sum over the 384 columns of the concatenation splits into the
  three slabs. The precondition says exactly that the arguments are finite.

  The frames — each program runs to its end, faults nowhere and leaves its arguments as it found them — are, for the
  kernel at both readings, the run of the pipeline with the body followed through its three kinds of grid point
  (Proof/KFrame.lean, Proof/KIFrame.lean), and for the reference its straight-line run. The kernel's idealization
  rewrote no operation, so there is nothing to preserve.
-/
import proofs.«117343_g7086696039036_cont_9to1c4b_243_11_alg».proof.Defs
import proofs.«117343_g7086696039036_cont_9to1c4b_243_11_alg».proof.Proof.KFrame
import proofs.«117343_g7086696039036_cont_9to1c4b_243_11_alg».proof.Proof.KIFrame
import proofs.«117343_g7086696039036_cont_9to1c4b_243_11_alg».proof.Proof.KIValue
import proofs.«117343_g7086696039036_cont_9to1c4b_243_11_alg».proof.Proof.RefValue
import proofs.«117343_g7086696039036_cont_9to1c4b_243_11_alg».proof.Proof.Finite
import proofs.«117343_g7086696039036_cont_9to1c4b_243_11_alg».proof.Proof.Gen.Kernel
import proofs.«117343_g7086696039036_cont_9to1c4b_243_11_alg».proof.Proof.Gen.KernelIdeal
import proofs.«117343_g7086696039036_cont_9to1c4b_243_11_alg».proof.Proof.Gen.ReferenceIdeal
import proofs.«117343_g7086696039036_cont_9to1c4b_243_11_alg».proof.Proof.Gen.ReferenceIdeal.Read
import proofs.«117343_g7086696039036_cont_9to1c4b_243_11_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs to its end and keeps its arguments. -/
theorem frame_k : Cert.frame_Kernel := fun m ρ _ => Cert.Kernel.Body.frame m ρ

/-- So does the kernel read over the extended reals. -/
theorem frame_ki : Cert.frame_KernelIdeal := fun m ρ _ => Cert.KernelIdeal.Body.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- Run from memories that agree on the four arguments, all finite, the kernel's result array and the reference's
    both end at the layer's value: entry (r, c) of either is  Σ_s Σ_k B_s r k · (Σ_j X k j · W (128 s + j) c) + b c
    for real entries, whichever way the sums are grouped. -/
theorem algebraic : Cert.algebraic_KernelIdeal_ReferenceIdeal := by
  intro m ρ m' ρ' hpre hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3⟩ := Cert.Pre_finite_inputs.Finite.finite_of_pre _ _ _ _ (hpre c)
  rw [Cert.ReferenceIdeal.Read.val_main_v13_eq, (hagree c).1, (hagree c).2.1, (hagree c).2.2.1, (hagree c).2.2.2]
  funext i
  obtain ⟨r, cc, rfl⟩ : ∃ (r : Fin 4096) (cc : Fin 128), i = ValueIdx.ix2 r cc := ⟨i 0, i 1, ValueIdx.eq_ix2 i⟩
  rw [Cert.ReferenceIdeal.RefValue.val_main_v13_layer _ _ _ _ f0 f1 f2 f3 r cc]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
